-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S16384x512 : Shape := ⟨2, ![16384, 512]⟩
abbrev S1x512 : Shape := ⟨2, ![1, 512]⟩
abbrev S1024x512 : Shape := ⟨2, ![1024, 512]⟩
abbrev S1x512x512 : Shape := ⟨3, ![1, 512, 512]⟩
abbrev S1x2048x512 : Shape := ⟨3, ![1, 2048, 512]⟩
abbrev S1x512x2048 : Shape := ⟨3, ![1, 512, 2048]⟩
abbrev S1x512x1 : Shape := ⟨3, ![1, 512, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16384x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S8x2048x512, .bf16⟩
  | .hbm, ⟨15, _⟩ => ⟨S8x2048x512, .bf16⟩
  | .hbm, ⟨16, _⟩ => ⟨S8x2048x512, .bf16⟩
  | .hbm, ⟨17, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x512x512, .f32⟩
  | .local _ .vmem, ⟨21, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x512_S16384x512 : S8x2048x512.ShapeCasts S16384x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S16384x512_S8x2048x512 : S16384x512.ShapeCasts S8x2048x512
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S1x2048x512 : S1x2048x512.ShapeCasts S1x2048x512
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x512 : S1x512x1.Broadcasts S1x512x512
  dot_S1024x512_S512x512_S1024x512_1_0_0_1_n_n_wf : DotDims.WF S1024x512 S512x512 S1024x512 [1] [0] [0] [1] [] []
  dot_S1x512x512_S1x2048x512_S1x512x2048_2_2_1_1_0_0_wf : DotDims.WF S1x512x512 S1x2048x512 S1x512x2048 [2] [2] [1] [1] [0] [0]
  dot_S1x512x2048_S1x2048x512_S1x512x512_2_1_1_2_0_0_wf : DotDims.WF S1x512x2048 S1x2048x512 S1x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .bf16 = 32 ∨ (Rect.block (s := S16384x512) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .bf16 = 32 ∨ (Rect.block (s := S16384x512) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .bf16 = 32 ∨ (Rect.block (s := S16384x512) S1024x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .bf16 = 32 ∨ (Rect.block (s := S8x2048x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x512.size a
  hwx1_1 : ∀ i : grid1.Coords, EltTy.bits .bf16 = 32 ∨ (Rect.block (s := S8x2048x512) S1x2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S8x2048x512.size a
  hwx1_2 : ∀ i : grid1.Coords, EltTy.bits .bf16 = 32 ∨ (Rect.block (s := S8x2048x512) S1x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x512.size a
  hwx1_3 : ∀ i : grid1.Coords, EltTy.bits .f32 = 32 ∨ (Rect.block (s := S8x2048x512) S1x512x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512x512_S1x2048x512_S1x512x2048_2_2_1_1_0_0 : DotDims S1x512x512 S1x2048x512 S1x512x2048 where
  lhsContracting := [2]
  rhsContracting := [2]
  lhsNonContracting := [1]
  rhsNonContracting := [1]
  lhsBatch := [0]
  rhsBatch := [0]
  wf := dot_S1x512x512_S1x2048x512_S1x512x2048_2_2_1_1_0_0_wf
def dot_S1x512x2048_S1x2048x512_S1x512x512_2_1_1_2_0_0 : DotDims S1x512x2048 S1x2048x512 S1x512x512 where
  lhsContracting := [2]
  rhsContracting := [1]
  lhsNonContracting := [1]
  rhsNonContracting := [2]
  lhsBatch := [0]
  rhsBatch := [0]
  wf := dot_S1x512x2048_S1x2048x512_S1x512x512_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S1x1x512, .f32⟩
  | .hbm, ⟨17, _⟩ => ⟨S8x2048x512, .f32⟩
  | .hbm, ⟨18, _⟩ => ⟨S8x2048x512, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  The attention head this kernel computes, as functions of its seven argument arrays over the extended reals.

  For a batch entry n, a query row i and an output column e:
    q, k, v  =  x · W + b                       (three projections, contraction over the 512 input features)
    s_j      =  Σ_d q[n,i,d] · k[n,j,d]         (the score of query row i against key row j)
    w_j      =  exp (s_j − max_j' s_j')         (the unnormalised softmax weight; the maximum folds from −∞)
  and the result is the weighted mean of the value rows, written in two arrangements that differ only in where the
  division by Σ_j w_j sits: after the weighted sum ("div after"), or on each weight before it ("div before").
  The two agree whenever the scores and the values are real numbers: see the law module.
-/
import Idealize.ShloMosaic.PureOps.Ideal
import Idealize.ShloMosaic.Lib.ValueIdx

noncomputable section

open scoped BigOperators

namespace Cert.Attention

open Idealize.ShloMosaic Idealize.ShloMosaic.ValueIdx

/-! ## One row: scores `s` and one column of values `v`, both indexed by the key position -/

/-- The largest score of a row, folded from −∞. -/
def rowMax {K : ℕ} (s : Fin K → EReal) : EReal := (Finset.univ : Finset (Fin K)).fold max (⊥ : EReal) s

/-- The unnormalised softmax weight of key position `j`. -/
def weight {K : ℕ} (s : Fin K → EReal) (j : Fin K) : EReal := Ideal.exp (s j - rowMax s)

/-- The weighted sum of the values divided by the sum of the weights. -/
def softDivAfter {K : ℕ} (s v : Fin K → EReal) : EReal :=
  Ideal.div (∑ j : Fin K, weight s j * v j) (∑ j : Fin K, weight s j)

/-- The sum of the values, each weighted by its normalised weight. -/
def softDivBefore {K : ℕ} (s v : Fin K → EReal) : EReal :=
  ∑ j : Fin K, Ideal.div (weight s j) (∑ j' : Fin K, weight s j') * v j

/-! ## The arrays -/

/-- An activation array [batch 8, sequence 2048, features 512]. -/
abbrev Act := (⟨3, ![8, 2048, 512]⟩ : Shape).Idx → EReal
/-- A weight matrix [512 in, 512 out]. -/
abbrev Mat := (⟨2, ![512, 512]⟩ : Shape).Idx → EReal
/-- A bias vector [512]. -/
abbrev Bias := (⟨1, ![512]⟩ : Shape).Idx → EReal

/-- One entry of `x · W + b`. -/
def proj (x : Act) (W : Mat) (b : Bias) (n : Fin 8) (s : Fin 2048) (e : Fin 512) : EReal :=
  (∑ d : Fin 512, x (ix3 n s d) * W (ix2 d e)) + b (ix1 e)

/-- `x · W + b` as an array. -/
def projArr (x : Act) (W : Mat) (b : Bias) : Act := fun i => proj x W b (i 0) (i 1) (i 2)

theorem projArr_ix3 (x : Act) (W : Mat) (b : Bias) (n : Fin 8) (s : Fin 2048) (e : Fin 512) :
    projArr x W b (ix3 n s e) = proj x W b n s e := rfl

/-- The score of query row `i` against key row `j` in batch entry `n`. -/
def score (q k : Act) (n : Fin 8) (i j : Fin 2048) : EReal := ∑ d : Fin 512, q (ix3 n i d) * k (ix3 n j d)

/-- Attention with the division after the weighted sum, one entry. -/
def attnDivAfter (q k v : Act) (n : Fin 8) (i : Fin 2048) (e : Fin 512) : EReal :=
  softDivAfter (fun j : Fin 2048 => score q k n i j) (fun j : Fin 2048 => v (ix3 n j e))

/-- Attention with each weight normalised before the weighted sum, one entry. -/
def attnDivBefore (q k v : Act) (n : Fin 8) (i : Fin 2048) (e : Fin 512) : EReal :=
  softDivBefore (fun j : Fin 2048 => score q k n i j) (fun j : Fin 2048 => v (ix3 n j e))

/-- Attention over given q, k, v arrays, division after the sum, as an array. -/
def attnAfterArr (q k v : Act) : Act := fun i => attnDivAfter q k v (i 0) (i 1) (i 2)

/-- The whole head with the division after the weighted sum. -/
def headDivAfter (x : Act) (Wq : Mat) (bq : Bias) (Wk : Mat) (bk : Bias) (Wv : Mat) (bv : Bias) : Act :=
  attnAfterArr (projArr x Wq bq) (projArr x Wk bk) (projArr x Wv bv)

/-- The whole head with each weight normalised first. -/
def headDivBefore (x : Act) (Wq : Mat) (bq : Bias) (Wk : Mat) (bk : Bias) (Wv : Mat) (bv : Bias) : Act :=
  fun i => attnDivBefore (projArr x Wq bq) (projArr x Wk bk) (projArr x Wv bv) (i 0) (i 1) (i 2)

/-! ## The one literal that is evaluated: the word of −∞ -/

/-- The f32 word `0xFF800000` is −∞. -/
theorem negInf_f32 : Ideal.ofBits .f32 0xFF800000#32 = (⊥ : EReal) := by
  simp [Ideal.ofBits, Ideal.ieee]

end Cert.Attention

end
-- ==== Proof.AttnLaw.lean ====
/-
  The two arrangements of the softmax-weighted mean agree on real data.

  For real scores s_j over a nonempty index set the running maximum M = max_j s_j is a real number, so every
  weight w_j = exp (s_j − M) is a positive real and the normaliser L = Σ_j w_j is a positive real. Dividing by L is
  then multiplying by the real number 1/L, and
      (Σ_j w_j · v_j) · (1/L)  =  Σ_j (w_j · (1/L)) · v_j
  is distributivity in ℝ. The projections and the scores are finite sums of products of reals, hence real, which
  carries the law from one row to the whole attention head.
-/
import proofs.«152242_j2465311228213_2_alg».proof.Proof.Spec

noncomputable section

open scoped BigOperators

namespace Cert.Attention

open Idealize.ShloMosaic Idealize.ShloMosaic.ValueIdx

/-! ## Finite sums of reals inside the extended reals -/

/-- A finite sum of real numbers, read in the extended reals, is the real sum. -/
theorem coe_sum {ι : Type*} (t : Finset ι) (f : ι → ℝ) :
    (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- A finite sum of products of real entries is real. -/
theorem sum_mul_real {ι : Type*} (t : Finset ι) (f g : ι → EReal)
    (hf : ∀ j, ∃ r : ℝ, f j = (r : EReal)) (hg : ∀ j, ∃ r : ℝ, g j = (r : EReal)) :
    ∃ r : ℝ, (∑ j ∈ t, f j * g j) = (r : EReal) := by
  choose a ha using hf
  choose b hb using hg
  refine ⟨∑ j ∈ t, a j * b j, ?_⟩
  rw [← coe_sum]
  refine Finset.sum_congr rfl fun j _ => ?_
  rw [ha, hb, EReal.coe_mul]

/-! ## The running maximum of real scores -/

/-- Folding the maximum from −∞ over finitely many reals gives −∞ or a real. -/
theorem fold_max_coe {ι : Type*} (t : Finset ι) (a : ι → ℝ) :
    t.fold max (⊥ : EReal) (fun j => (a j : EReal)) = ⊥ ∨
      ∃ M : ℝ, t.fold max (⊥ : EReal) (fun j => (a j : EReal)) = (M : EReal) := by
  classical
  induction t using Finset.induction_on with
  | empty => exact Or.inl (by simp)
  | insert i t hi ih =>
    rw [Finset.fold_insert hi]
    rcases ih with h | ⟨M, h⟩
    · exact Or.inr ⟨a i, by rw [h, max_eq_left bot_le]⟩
    · exact Or.inr ⟨max (a i) M, by rw [h]; exact (EReal.coe_strictMono.monotone.map_max).symm⟩

/-- Over a nonempty index set the maximum of real scores is a real number. -/
theorem rowMax_coe {K : ℕ} (hK : 0 < K) (a : Fin K → ℝ) :
    ∃ M : ℝ, rowMax (fun j => (a j : EReal)) = (M : EReal) := by
  rcases fold_max_coe (Finset.univ : Finset (Fin K)) a with h | h
  · exfalso
    have hle : ((a ⟨0, hK⟩ : ℝ) : EReal) ≤
        (Finset.univ : Finset (Fin K)).fold max (⊥ : EReal) (fun j => (a j : EReal)) :=
      (Finset.le_fold_max _).mpr (Or.inr ⟨⟨0, hK⟩, Finset.mem_univ _, le_refl _⟩)
    rw [h] at hle
    exact EReal.coe_ne_bot _ (le_bot_iff.mp hle)
  · exact h

/-! ## One row -/

/-- On real scores and real values, dividing the weighted sum by the normaliser equals weighting by the
    normalised weights. -/
theorem softDiv_eq {K : ℕ} (hK : 0 < K) (s v : Fin K → EReal)
    (hs : ∀ j, ∃ r : ℝ, s j = (r : EReal)) (hv : ∀ j, ∃ r : ℝ, v j = (r : EReal)) :
    softDivAfter s v = softDivBefore s v := by
  choose a ha using hs
  choose b hb using hv
  obtain rfl : s = fun j => (a j : EReal) := funext ha
  obtain rfl : v = fun j => (b j : EReal) := funext hb
  obtain ⟨M, hM⟩ := rowMax_coe hK a
  -- every weight is the positive real exp (a_j − M)
  have hw : ∀ j, weight (fun j => (a j : EReal)) j = ((Real.exp (a j - M) : ℝ) : EReal) := by
    intro j
    show Ideal.exp (((a j : ℝ) : EReal) - rowMax (fun j => (a j : EReal))) = _
    rw [hM, ← EReal.coe_sub]
    rfl
  -- the normaliser is a positive real
  have hL : (∑ j : Fin K, weight (fun j => (a j : EReal)) j) =
      ((∑ j : Fin K, Real.exp (a j - M) : ℝ) : EReal) := by
    rw [← coe_sum]
    exact Finset.sum_congr rfl fun j _ => hw j
  have hpos : 0 < ∑ j : Fin K, Real.exp (a j - M) :=
    Finset.sum_pos (fun j _ => Real.exp_pos _) ⟨⟨0, hK⟩, Finset.mem_univ _⟩
  have hne : (∑ j : Fin K, Real.exp (a j - M)) ≠ 0 := ne_of_gt hpos
  unfold softDivAfter softDivBefore
  rw [hL, Ideal.div_coe hne]
  have hnum : (∑ j : Fin K, weight (fun j => (a j : EReal)) j * ((b j : ℝ) : EReal)) =
      ((∑ j : Fin K, Real.exp (a j - M) * b j : ℝ) : EReal) := by
    rw [← coe_sum]
    refine Finset.sum_congr rfl fun j _ => ?_
    rw [hw j, EReal.coe_mul]
  have hrhs : (∑ j : Fin K, Ideal.div (weight (fun j => (a j : EReal)) j)
        ((∑ j : Fin K, Real.exp (a j - M) : ℝ) : EReal) * ((b j : ℝ) : EReal)) =
      ((∑ j : Fin K, Real.exp (a j - M) * (1 / ∑ j : Fin K, Real.exp (a j - M)) * b j : ℝ) : EReal) := by
    refine (Finset.sum_congr rfl fun j _ => ?_).trans (coe_sum Finset.univ
      (fun j => Real.exp (a j - M) * (1 / ∑ j : Fin K, Real.exp (a j - M)) * b j))
    rw [Ideal.div_coe hne, hw j, EReal.coe_mul, EReal.coe_mul]
  rw [hnum, hrhs, ← EReal.coe_mul]
  congr 1
  rw [Finset.sum_mul]
  refine Finset.sum_congr rfl fun j _ => ?_
  ring

/-! ## The arrays -/

/-- An entry of a projection of real arrays is real. -/
theorem proj_real (x : Act) (W : Mat) (b : Bias) (hx : ∀ i, ∃ r : ℝ, x i = (r : EReal))
    (hW : ∀ i, ∃ r : ℝ, W i = (r : EReal)) (hb : ∀ i, ∃ r : ℝ, b i = (r : EReal))
    (n : Fin 8) (s : Fin 2048) (e : Fin 512) : ∃ r : ℝ, proj x W b n s e = (r : EReal) := by
  obtain ⟨r, hr⟩ := sum_mul_real (Finset.univ : Finset (Fin 512)) (fun d => x (ix3 n s d))
    (fun d => W (ix2 d e)) (fun d => hx _) (fun d => hW _)
  obtain ⟨c, hc⟩ := hb (ix1 e)
  have hr' : (∑ d : Fin 512, x (ix3 n s d) * W (ix2 d e)) = (r : EReal) := hr
  refine ⟨r + c, ?_⟩
  show (∑ d : Fin 512, x (ix3 n s d) * W (ix2 d e)) + b (ix1 e) = _
  rw [hr', hc, EReal.coe_add]

/-- A score of real query and key arrays is real. -/
theorem score_real (q k : Act) (hq : ∀ i, ∃ r : ℝ, q i = (r : EReal))
    (hk : ∀ i, ∃ r : ℝ, k i = (r : EReal)) (n : Fin 8) (i j : Fin 2048) :
    ∃ r : ℝ, score q k n i j = (r : EReal) :=
  sum_mul_real (Finset.univ : Finset (Fin 512)) (fun d => q (ix3 n i d)) (fun d => k (ix3 n j d))
    (fun d => hq _) (fun d => hk _)

/-- On real inputs the two arrangements of the whole head are the same array. -/
theorem head_eq (x : Act) (Wq : Mat) (bq : Bias) (Wk : Mat) (bk : Bias) (Wv : Mat) (bv : Bias)
    (hx : ∀ i, ∃ r : ℝ, x i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal)) :
    headDivAfter x Wq bq Wk bk Wv bv = headDivBefore x Wq bq Wk bk Wv bv := by
  have hq : ∀ i, ∃ r : ℝ, projArr x Wq bq i = (r : EReal) :=
    fun i => proj_real x Wq bq hx hWq hbq (i 0) (i 1) (i 2)
  have hk : ∀ i, ∃ r : ℝ, projArr x Wk bk i = (r : EReal) :=
    fun i => proj_real x Wk bk hx hWk hbk (i 0) (i 1) (i 2)
  have hv : ∀ i, ∃ r : ℝ, projArr x Wv bv i = (r : EReal) :=
    fun i => proj_real x Wv bv hx hWv hbv (i 0) (i 1) (i 2)
  funext i
  show attnDivAfter (projArr x Wq bq) (projArr x Wk bk) (projArr x Wv bv) (i 0) (i 1) (i 2) =
    attnDivBefore (projArr x Wq bq) (projArr x Wk bk) (projArr x Wv bv) (i 0) (i 1) (i 2)
  unfold attnDivAfter attnDivBefore
  exact softDiv_eq (by norm_num) _ _
    (fun j => score_real _ _ hq hk (i 0) (i 1) j) (fun j => hv _)

end Cert.Attention

end
-- ==== Proof.Finite.lean ====
/-
  The precondition read back: every entry of every argument array is a real number.

  The precondition is, for each of the seven argument arrays a, the conjunction over all entries of |a_i| < +∞, and the
  seven results are conjoined. A conjunction of bits that is 1 has every conjunct 1, so |a_i| < +∞ holds at every entry.
  In the extended reals |x| = max x (−x) is +∞ exactly at x = ±∞, so an entry with |x| < +∞ is a real number.
-/
import proofs.«152242_j2465311228213_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

/-- The rank-0 shape has one index. -/
instance : Subsingleton S_.Idx := ⟨fun a b => funext fun d => d.elim0⟩

/-- The f32 word `0x7F800000` is +∞. -/
theorem posInf_f32 : Ideal.ofBits .f32 0x7F800000#32 = (⊤ : EReal) := by
  simp [Ideal.ofBits, Ideal.ieee]

/-- A bit made from a truth value is 1 exactly when the value is true. -/
theorem ofBool_eq_one (b : Bool) : BitVec.ofBool b = 1#1 ↔ b = true := by cases b <;> decide

/-- An extended real whose absolute value max x (−x) is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- If the conjunction over all entries of |a_i| < +∞ is 1, every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf a) (broadcastInDim s ![] hb (constant (F := Ideal) S_ .f32 0x7F800000#32)))
        (constantI S_ 1 1#1) hr hu j = 1#1) :
    ∀ i, ∃ r : ℝ, a i = (r : EReal) := by
  intro i
  have h1 := Host.reduce_andi_all _ _ hr hu j e i
  change Ideal.cmp .olt (max (a i) (-(a i))) (Ideal.ofBits .f32 0x7F800000#32) = 1#1 at h1
  rw [posInf_f32] at h1
  unfold Ideal.cmp at h1
  rw [ofBool_eq_one] at h1
  exact real_of_abs_lt_top (a i) (by simpa using h1)

/-- The precondition holding gives real entries in all seven argument arrays. -/
theorem reals_of_pre [Cert.Pre_finite_inputs.Facts]
    (a0 : FVec Ideal Cert.Pre_finite_inputs.S8x2048x512 .f32)
    (a1 : FVec Ideal Cert.Pre_finite_inputs.S512x512 .f32)
    (a2 : FVec Ideal Cert.Pre_finite_inputs.S512 .f32)
    (a3 : FVec Ideal Cert.Pre_finite_inputs.S512x512 .f32)
    (a4 : FVec Ideal Cert.Pre_finite_inputs.S512 .f32)
    (a5 : FVec Ideal Cert.Pre_finite_inputs.S512x512 .f32)
    (a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨h0, h1⟩, h2⟩, h3⟩, h4⟩, h5⟩, h6⟩ := e
  exact ⟨real_of_all a0 _ _ _ _ h0, real_of_all a1 _ _ _ _ h1, real_of_all a2 _ _ _ _ h2,
    real_of_all a3 _ _ _ _ h3, real_of_all a4 _ _ _ _ h4, real_of_all a5 _ _ _ _ h5,
    real_of_all a6 _ _ _ _ h6⟩

end Cert.Finite

end
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.RefValue.lean ====
/-
  The reference program, stage by stage, is the attention head of the specification with every softmax weight
  normalised before the weighted sum of the value rows.

  Each stage is read at an index written by its coordinates:
    the three projections at (n, s, e) are  Σ_d x[n,s,d] · W[d,e] + b[e];
    the scores at (n, i, j) are  Σ_d q[n,i,d] · k[n,j,d];
    the row maximum at (n, i) is the maximum of the scores of row i folded from −∞, and taking its maximum with −∞ once
      more changes nothing;
    the weights at (n, i, j) are  exp (s_j − max_j' s_j');  their row sum at (n, i) starts from zero;
    the normalised weights are the weights divided by the row sum;
    the result at (n, i, e) is  Σ_j (normalised weight)_j · v[n,j,e].
-/
import proofs.«152242_j2465311228213_2_alg».proof.Proof.Gen.ReferenceIdeal.Read
import proofs.«152242_j2465311228213_2_alg».proof.Proof.Spec
import proofs.«152242_j2465311228213_2_alg».proof.Proof.LibHostMaxForms
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

/-- An activation array, a weight matrix and a bias vector, as the reference program types them. -/
abbrev A3 := (⟨S8x2048x512, .f32⟩ : BufTy).Contents (Elt Ideal)
abbrev M2 := (⟨S512x512, .f32⟩ : BufTy).Contents (Elt Ideal)
abbrev B1 := (⟨S512, .f32⟩ : BufTy).Contents (Elt Ideal)

/-! ## The projections -/

/-- The first projection at (n, s, e): the contraction over the input features plus the bias of column e. -/
theorem v3_ix3 (x0 : A3) (x1 : M2) (x2 : B1) (n : Fin 8) (s : Fin 2048) (e : Fin 512) :
    val_main_v3 (F := Ideal) x0 x1 x2 (ix3 n s e) = proj x0 x1 x2 n s e := by
  rw [val_main_v3_apply, val_main_v0_apply, val_main_v2_apply, val_main_v1_apply]
  have hb : idx_main_v1 (idx_main_v2 (ix3 n s e)) = ix1 e :=
    funext fun a => Fin.ext (by match a with | ⟨0, _⟩ => rfl)
  have hl : ∀ k : Fin 512, lidx_main_v0 (ix3 n s e) k = ix3 n s k := fun k =>
    funext fun a => Fin.ext (by match a with | ⟨0, _⟩ => rfl | ⟨1, _⟩ => rfl | ⟨2, _⟩ => rfl)
  have hr : ∀ k : Fin 512, ridx_main_v0 (ix3 n s e) k = ix2 k e := fun k =>
    funext fun a => Fin.ext (by match a with | ⟨0, _⟩ => rfl | ⟨1, _⟩ => rfl)
  rw [hb, Ideal.addf_def]
  unfold proj
  refine congrArg (· + x2 (ix1 e)) (Finset.sum_congr rfl fun k _ => ?_)
  rw [hl k, hr k]

/-- The second projection is the same program text on the second weight matrix and bias. -/
theorem v7_ix3 (x0 : A3) (x3 : M2) (x4 : B1) (n : Fin 8) (s : Fin 2048) (e : Fin 512) :
    val_main_v7 (F := Ideal) x0 x3 x4 (ix3 n s e) = proj x0 x3 x4 n s e :=
  v3_ix3 x0 x3 x4 n s e

/-- The third projection is the same program text on the third weight matrix and bias. -/
theorem v11_ix3 (x0 : A3) (x5 : M2) (x6 : B1) (n : Fin 8) (s : Fin 2048) (e : Fin 512) :
    val_main_v11 (F := Ideal) x0 x5 x6 (ix3 n s e) = proj x0 x5 x6 n s e :=
  v3_ix3 x0 x5 x6 n s e

/-! ## The scores -/

/-- The score array at (n, i, j): query row i against key row j, contracted over the features. -/
theorem v12_ix3 (x0 : A3) (x1 : M2) (x2 : B1) (x3 : M2) (x4 : B1) (n : Fin 8) (i j : Fin 2048) :
    val_main_v12 (F := Ideal) x0 x1 x2 x3 x4 (ix3 n i j)
      = score (projArr x0 x1 x2) (projArr x0 x3 x4) n i j := by
  rw [val_main_v12_apply]
  unfold score
  refine Finset.sum_congr rfl fun d _ => ?_
  have hl : lidx_main_v12 (ix3 n i j) d = ix3 n i d :=
    funext fun a => Fin.ext (by match a with | ⟨0, _⟩ => rfl | ⟨1, _⟩ => rfl | ⟨2, _⟩ => rfl)
  have hr : ridx_main_v12 (ix3 n i j) d = ix3 n j d :=
    funext fun a => Fin.ext (by match a with | ⟨0, _⟩ => rfl | ⟨1, _⟩ => rfl | ⟨2, _⟩ => rfl)
  rw [hl, hr, v3_ix3, v7_ix3, projArr_ix3, projArr_ix3]

/-! ## The row maximum -/

/-- The maximum-reduce over the key axis at (n, i): the largest score of row i, folded from −∞. -/
theorem v13_ix2 (x0 : A3) (x1 : M2) (x2 : B1) (x3 : M2) (x4 : B1) (n : Fin 8) (i : Fin 2048) :
    val_main_v13 (F := Ideal) x0 x1 x2 x3 x4 (ix2 n i)
      = rowMax (fun j : Fin 2048 => score (projArr x0 x1 x2) (projArr x0 x3 x4) n i j) := by
  unfold val_main_v13
  refine (hostReduceMax3_last (val_main_v12 (F := Ideal) x0 x1 x2 x3 x4) (val_main_cst (F := Ideal))
    Facts₀.reducesTo_S8x2048x2048_S8x2048_d2 (by decide) Facts₀.h_S_ n i).trans ?_
  unfold rowMax
  rw [val_main_cst_apply, Ideal.ofBits_def, negInf_f32]
  exact congrArg (fun f : Fin 2048 → EReal => (Finset.univ : Finset (Fin 2048)).fold max (⊥ : EReal) f)
    (funext fun k => v12_ix3 x0 x1 x2 x3 x4 n i k)

/-- Taking the maximum with −∞ once more leaves the row maximum as it is. -/
theorem v15_ix2 (x0 : A3) (x1 : M2) (x2 : B1) (x3 : M2) (x4 : B1) (n : Fin 8) (i : Fin 2048) :
    val_main_v15 (F := Ideal) x0 x1 x2 x3 x4 (ix2 n i)
      = rowMax (fun j : Fin 2048 => score (projArr x0 x1 x2) (projArr x0 x3 x4) n i j) := by
  rw [val_main_v15_apply, val_main_v14_apply, val_main_cst_0_apply, v13_ix2, Ideal.maximumf_def, Ideal.ofBits_def,
    negInf_f32]
  exact max_eq_right bot_le

/-- The row maximum broadcast back along the key axis. -/
theorem v17_ix3 (x0 : A3) (x1 : M2) (x2 : B1) (x3 : M2) (x4 : B1) (n : Fin 8) (i j : Fin 2048) :
    val_main_v17 (F := Ideal) x0 x1 x2 x3 x4 (ix3 n i j)
      = rowMax (fun j' : Fin 2048 => score (projArr x0 x1 x2) (projArr x0 x3 x4) n i j') := by
  rw [val_main_v17_apply, val_main_v16_apply]
  have h : idx_main_v16 (idx_main_v17 (ix3 n i j)) = ix2 n i :=
    funext fun a => Fin.ext (by match a with | ⟨0, _⟩ => rfl | ⟨1, _⟩ => rfl)
  rw [h, v15_ix2]

/-! ## The weights, their row sum, and the normalised weights -/

/-- The exponential of the score minus the row maximum at (n, i, j): the unnormalised weight of key position j. -/
theorem v19_ix3 (x0 : A3) (x1 : M2) (x2 : B1) (x3 : M2) (x4 : B1) (n : Fin 8) (i j : Fin 2048) :
    val_main_v19 (F := Ideal) x0 x1 x2 x3 x4 (ix3 n i j)
      = weight (fun j' : Fin 2048 => score (projArr x0 x1 x2) (projArr x0 x3 x4) n i j') j := by
  rw [val_main_v19_apply, val_main_v18_apply, v12_ix3, v17_ix3, Ideal.hostUnary_exp_def, Ideal.subf_def]
  rfl

/-- The add-reduce over the key axis at (n, i), from zero: the sum of the weights of row i. -/
theorem v20_ix2 (x0 : A3) (x1 : M2) (x2 : B1) (x3 : M2) (x4 : B1) (n : Fin 8) (i : Fin 2048) :
    val_main_v20 (F := Ideal) x0 x1 x2 x3 x4 (ix2 n i)
      = ∑ j : Fin 2048, weight (fun j' : Fin 2048 => score (projArr x0 x1 x2) (projArr x0 x3 x4) n i j') j := by
  rw [val_main_v20_apply, val_main_cst_1_apply, Ideal.ofBits_def, Ideal.ofBits_zero_f32, zero_add]
  refine Finset.sum_congr rfl fun k _ => ?_
  have h : idx_main_v20 (ix2 n i) k = ix3 n i k :=
    funext fun a => Fin.ext (by match a with | ⟨0, _⟩ => rfl | ⟨1, _⟩ => rfl | ⟨2, _⟩ => rfl)
  rw [h, v19_ix3]

/-- The row sum broadcast back along the key axis. -/
theorem v22_ix3 (x0 : A3) (x1 : M2) (x2 : B1) (x3 : M2) (x4 : B1) (n : Fin 8) (i j : Fin 2048) :
    val_main_v22 (F := Ideal) x0 x1 x2 x3 x4 (ix3 n i j)
      = ∑ j'' : Fin 2048, weight (fun j' : Fin 2048 => score (projArr x0 x1 x2) (projArr x0 x3 x4) n i j') j'' := by
  rw [val_main_v22_apply, val_main_v21_apply]
  have h : idx_main_v21 (idx_main_v22 (ix3 n i j)) = ix2 n i :=
    funext fun a => Fin.ext (by match a with | ⟨0, _⟩ => rfl | ⟨1, _⟩ => rfl)
  rw [h, v20_ix2]

/-- The weight of key position j divided by the row sum. -/
theorem v23_ix3 (x0 : A3) (x1 : M2) (x2 : B1) (x3 : M2) (x4 : B1) (n : Fin 8) (i j : Fin 2048) :
    val_main_v23 (F := Ideal) x0 x1 x2 x3 x4 (ix3 n i j)
      = Ideal.div (weight (fun j' : Fin 2048 => score (projArr x0 x1 x2) (projArr x0 x3 x4) n i j') j)
          (∑ j'' : Fin 2048, weight (fun j' : Fin 2048 => score (projArr x0 x1 x2) (projArr x0 x3 x4) n i j') j'') := by
  rw [val_main_v23_apply, v19_ix3, v22_ix3, Ideal.hostDivf_def]

/-! ## The result -/

/-- The result at (n, i, e): the value rows of column e summed with the normalised weights of query row i. -/
theorem v24_ix3 (x0 : A3) (x1 : M2) (x2 : B1) (x3 : M2) (x4 : B1) (x5 : M2) (x6 : B1)
    (n : Fin 8) (i : Fin 2048) (e : Fin 512) :
    val_main_v24 (F := Ideal) x0 x1 x2 x3 x4 x5 x6 (ix3 n i e)
      = attnDivBefore (projArr x0 x1 x2) (projArr x0 x3 x4) (projArr x0 x5 x6) n i e := by
  rw [val_main_v24_apply]
  unfold attnDivBefore softDivBefore
  refine Finset.sum_congr rfl fun k _ => ?_
  have hl : lidx_main_v24 (ix3 n i e) k = ix3 n i k :=
    funext fun a => Fin.ext (by match a with | ⟨0, _⟩ => rfl | ⟨1, _⟩ => rfl | ⟨2, _⟩ => rfl)
  have hr : ridx_main_v24 (ix3 n i e) k = ix3 n k e :=
    funext fun a => Fin.ext (by match a with | ⟨0, _⟩ => rfl | ⟨1, _⟩ => rfl | ⟨2, _⟩ => rfl)
  rw [hl, hr, v23_ix3, v11_ix3]
  rfl

/-- The reference program's result is the specification's head with the division before the weighted sum. -/
theorem val_main_v24_eq_spec (x0 : (⟨S8x2048x512, .f32⟩ : BufTy).Contents (Elt Ideal))
    (x1 : (⟨S512x512, .f32⟩ : BufTy).Contents (Elt Ideal)) (x2 : (⟨S512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal)) :
    Cert.ReferenceIdeal.Read.val_main_v24 (F := Ideal) x0 x1 x2 x3 x4 x5 x6
      = Cert.Attention.headDivBefore x0 x1 x2 x3 x4 x5 x6 := by
  funext i
  obtain ⟨n, r, e, rfl⟩ : ∃ (n : Fin 8) (r : Fin 2048) (e : Fin 512), i = ix3 n r e := ⟨i 0, i 1, i 2, eq_ix3 i⟩
  exact v24_ix3 x0 x1 x2 x3 x4 x5 x6 n r e

/-- The same, one entry at a time. -/
theorem val_main_v24_apply_spec (x0 : (⟨S8x2048x512, .f32⟩ : BufTy).Contents (Elt Ideal))
    (x1 : (⟨S512x512, .f32⟩ : BufTy).Contents (Elt Ideal)) (x2 : (⟨S512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (n : Fin 8) (i : Fin 2048) (e : Fin 512) :
    Cert.ReferenceIdeal.Read.val_main_v24 (F := Ideal) x0 x1 x2 x3 x4 x5 x6 (ix3 n i e)
      = Cert.Attention.attnDivBefore (Cert.Attention.projArr x0 x1 x2) (Cert.Attention.projArr x0 x3 x4)
          (Cert.Attention.projArr x0 x5 x6) n i e :=
  v24_ix3 x0 x1 x2 x3 x4 x5 x6 n i e

end Cert.ReferenceIdeal.RefValue

end
-- ==== Proof.RunValue.lean ====
/-
  The idealized kernel's whole run with its result array named.

  The program is two kernel regions among stretches of host operations.  Its run passes through five boundaries; at
  each the contents of every buffer are a known function of the launch memory: the host stretches apply their
  operations, and a region replaces each of its arrays by what its write-backs leave.  So after the last region the
  result buffer holds the last boundary's contents at that buffer, and the seven argument buffers hold what they were
  launched with.
-/
import proofs.«152242_j2465311228213_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents
    the last boundary assigns it, and each argument buffer what it was launched with. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.Layout.lean ====
/-
  The projection written over a row-major activation matrix, and its agreement with the rank-3 form.

  The projection kernel sees the activations [8, 2048, 512] flattened to 16384 rows of 512 features, and each bias
  vector as a single row [1, 512]; its three results are again 16384 rows, which the host regroups as
  [8, 2048, 512].  Row p = n·2048 + s of the flat matrix is sequence position s of batch entry n, so regrouping
  the flat projection of the flattened activations gives the rank-3 projection entry by entry.
-/
import proofs.«152242_j2465311228213_2_alg».proof.Proof.Spec
import proofs.«152242_j2465311228213_2_alg».proof.Proof.LibRankThreeForms
import Idealize.ShloMosaic.Lib.ValueLayout
import Idealize.ShloMosaic.Lib.Pipeline.Value

noncomputable section

open scoped BigOperators

namespace Cert.Attention

open Idealize.ShloMosaic Idealize.ShloMosaic.ValueIdx

/-- The activations as 16384 rows of 512 features. -/
abbrev Rows := (⟨2, ![16384, 512]⟩ : Shape).Idx → EReal
/-- A bias vector as one row. -/
abbrev BiasRow := (⟨2, ![1, 512]⟩ : Shape).Idx → EReal

/-- `X · W + B` over the flat rows: entry (p, e) is row p of X against column e of W, plus the bias of column e. -/
def projRows (X : Rows) (W : Mat) (B : BiasRow) : Rows :=
  fun i => (∑ d : Fin 512, X (ix2 (i 0) d) * W (ix2 d (i 1))) + B (ix2 (0 : Fin 1) (i 1))

theorem projRows_ix2 (X : Rows) (W : Mat) (B : BiasRow) (p : Fin 16384) (e : Fin 512) :
    projRows X W B (ix2 p e) = (∑ d : Fin 512, X (ix2 p d) * W (ix2 d e)) + B (ix2 (0 : Fin 1) e) := rfl

/-- Regrouping the flat projection of the flattened activations (and the bias as a row) is the rank-3 projection. -/
theorem regroup_projRows (x : Act) (W : Mat) (b : Bias)
    (hx : (⟨3, ![8, 2048, 512]⟩ : Shape).ShapeCasts ⟨2, ![16384, 512]⟩)
    (hb : (⟨1, ![512]⟩ : Shape).ShapeCasts ⟨2, ![1, 512]⟩)
    (ho : (⟨2, ![16384, 512]⟩ : Shape).ShapeCasts ⟨3, ![8, 2048, 512]⟩) :
    shapeCast ⟨3, ![8, 2048, 512]⟩
        (projRows (shapeCast ⟨2, ![16384, 512]⟩ x hx) W (shapeCast ⟨2, ![1, 512]⟩ b hb)) ho
      = projArr x W b := by
  funext i
  obtain ⟨n, s, e, rfl⟩ : ∃ (n : Fin 8) (s : Fin 2048) (e : Fin 512), i = ix3 n s e := ⟨i 0, i 1, i 2, eq_ix3 i⟩
  have hp : n.val * 2048 + s.val < 16384 := by omega
  rw [shapeCast_pc_abc_apply _ ho n s e ⟨n.val * 2048 + s.val, hp⟩ rfl, projRows_ix2, projArr_ix3]
  unfold proj
  rw [shapeCast_a_1a_apply b hb (0 : Fin 1) e]
  refine congrArg (· + b (ix1 e)) (Finset.sum_congr rfl fun d _ => ?_)
  rw [shapeCast_abc_pc_apply x hx n s d ⟨n.val * 2048 + s.val, hp⟩ rfl]

end Cert.Attention

end
-- ==== Proof.Glue.lean ====
/-
  What the idealized kernel's result buffer holds, as the attention head of the launch arguments.

  Walking the boundaries backwards: the result is the second region's output array; that region's three input
  arrays are the first region's three output arrays regrouped from 16384 rows to [8, 2048, 512]; and the first
  region's inputs are the launch arguments, the activations flattened to rows and each bias taken as one row.
  Given each region's output arrays as whole-array functions of its input arrays, the chain composes to the head
  with the division after the weighted sum.
-/
import proofs.«152242_j2465311228213_2_alg».proof.Proof.Gen.KernelIdeal.Frame
import proofs.«152242_j2465311228213_2_alg».proof.Proof.Spec
import proofs.«152242_j2465311228213_2_alg».proof.Proof.Layout
import Idealize.ShloMosaic.Lib.StableHlo.Run

set_option maxRecDepth 16384

noncomputable section

namespace Cert.KernelIdeal.Glue

open Cert.KernelIdeal Cert.KernelIdeal.Gen Cert.Attention
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

/-- The activations, flattened to rows. -/
theorem entry_rows (c : Dev nD) :
    V1 m ρ c main_v0 = shapeCast S16384x512 (m ((c : Thread nD τ).loc main_arg0)) shapeCasts_S8x2048x512_S16384x512 := by
  show StableHlo.after hostOps0 (W0 m ρ c) (Proc.devRef .tc main_v0) = _
  after_results
  rfl

/-- The query bias as one row. -/
theorem entry_bias_q (c : Dev nD) :
    V1 m ρ c main_v1 = shapeCast S1x512 (m ((c : Thread nD τ).loc main_arg2)) shapeCasts_S512_S1x512 := by
  show StableHlo.after hostOps0 (W0 m ρ c) (Proc.devRef .tc main_v1) = _
  after_results
  rfl

/-- The key bias as one row. -/
theorem entry_bias_k (c : Dev nD) :
    V1 m ρ c main_v2 = shapeCast S1x512 (m ((c : Thread nD τ).loc main_arg4)) shapeCasts_S512_S1x512 := by
  show StableHlo.after hostOps0 (W0 m ρ c) (Proc.devRef .tc main_v2) = _
  after_results
  rfl

/-- The value bias as one row. -/
theorem entry_bias_v (c : Dev nD) :
    V1 m ρ c main_v3 = shapeCast S1x512 (m ((c : Thread nD τ).loc main_arg6)) shapeCasts_S512_S1x512 := by
  show StableHlo.after hostOps0 (W0 m ρ c) (Proc.devRef .tc main_v3) = _
  after_results
  rfl

/-- The three weight matrices are the launch arguments themselves. -/
theorem entry_Wq (c : Dev nD) : V1 m ρ c main_arg1 = m ((c : Thread nD τ).loc main_arg1) := by
  show StableHlo.after hostOps0 (W0 m ρ c) (Proc.devRef .tc main_arg1) = _
  after_results
theorem entry_Wk (c : Dev nD) : V1 m ρ c main_arg3 = m ((c : Thread nD τ).loc main_arg3) := by
  show StableHlo.after hostOps0 (W0 m ρ c) (Proc.devRef .tc main_arg3) = _
  after_results
theorem entry_Wv (c : Dev nD) : V1 m ρ c main_arg5 = m ((c : Thread nD τ).loc main_arg5) := by
  show StableHlo.after hostOps0 (W0 m ρ c) (Proc.devRef .tc main_arg5) = _
  after_results

/-! ## What the second region finds: the first region's outputs regrouped -/

theorem mid_q (c : Dev nD) :
    V3 m ρ c main_v5 = shapeCast S8x2048x512 ((dat0 (V1 m ρ) c).arrAt 7 cfg0.N) shapeCasts_S16384x512_S8x2048x512 := by
  show StableHlo.after hostOps1 (W2 m ρ c) (Proc.devRef .tc main_v5) = _
  after_results
  exact congrArg (fun a => shapeCast S8x2048x512 a shapeCasts_S16384x512_S8x2048x512) (W2_arr m ρ c 7)

theorem mid_k (c : Dev nD) :
    V3 m ρ c main_v6 = shapeCast S8x2048x512 ((dat0 (V1 m ρ) c).arrAt 8 cfg0.N) shapeCasts_S16384x512_S8x2048x512 := by
  show StableHlo.after hostOps1 (W2 m ρ c) (Proc.devRef .tc main_v6) = _
  after_results
  exact congrArg (fun a => shapeCast S8x2048x512 a shapeCasts_S16384x512_S8x2048x512) (W2_arr m ρ c 8)

theorem mid_v (c : Dev nD) :
    V3 m ρ c main_v7 = shapeCast S8x2048x512 ((dat0 (V1 m ρ) c).arrAt 9 cfg0.N) shapeCasts_S16384x512_S8x2048x512 := by
  show StableHlo.after hostOps1 (W2 m ρ c) (Proc.devRef .tc main_v7) = _
  after_results
  exact congrArg (fun a => shapeCast S8x2048x512 a shapeCasts_S16384x512_S8x2048x512) (W2_arr m ρ c 9)

/-! ## The result -/

/-- Given each region's output arrays as functions of its input arrays, the result buffer holds the head of the
    launch arguments, the division after the weighted sum. -/
theorem result_eq (c : Dev nD)
    (hq : (dat0 (V1 m ρ) c).arrAt 7 cfg0.N = projRows (V1 m ρ c main_v0) (V1 m ρ c main_arg1) (V1 m ρ c main_v1))
    (hk : (dat0 (V1 m ρ) c).arrAt 8 cfg0.N = projRows (V1 m ρ c main_v0) (V1 m ρ c main_arg3) (V1 m ρ c main_v2))
    (hv : (dat0 (V1 m ρ) c).arrAt 9 cfg0.N = projRows (V1 m ρ c main_v0) (V1 m ρ c main_arg5) (V1 m ρ c main_v3))
    (ho : (dat1 (V3 m ρ) c).arrAt 3 cfg1.N = attnAfterArr (V3 m ρ c main_v5) (V3 m ρ c main_v6) (V3 m ρ c main_v7)) :
    W4 m ρ c (Proc.devRef .tc main_v8)
      = headDivAfter (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have h1 : W4 m ρ c (Proc.devRef .tc main_v8) = (dat1 (V3 m ρ) c).arrAt 3 cfg1.N := W4_arr m ρ c 3
  rw [h1, ho, mid_q, mid_k, mid_v, hq, hk, hv, entry_rows, entry_bias_q, entry_bias_k, entry_bias_v,
    entry_Wq, entry_Wk, entry_Wv]
  unfold headDivAfter
  rw [← regroup_projRows (m ((c : Thread nD τ).loc main_arg0)) (m ((c : Thread nD τ).loc main_arg1))
        (m ((c : Thread nD τ).loc main_arg2)) shapeCasts_S8x2048x512_S16384x512 shapeCasts_S512_S1x512
        shapeCasts_S16384x512_S8x2048x512,
      ← regroup_projRows (m ((c : Thread nD τ).loc main_arg0)) (m ((c : Thread nD τ).loc main_arg3))
        (m ((c : Thread nD τ).loc main_arg4)) shapeCasts_S8x2048x512_S16384x512 shapeCasts_S512_S1x512
        shapeCasts_S16384x512_S8x2048x512,
      ← regroup_projRows (m ((c : Thread nD τ).loc main_arg0)) (m ((c : Thread nD τ).loc main_arg5))
        (m ((c : Thread nD τ).loc main_arg6)) shapeCasts_S8x2048x512_S16384x512 shapeCasts_S512_S1x512
        shapeCasts_S16384x512_S8x2048x512]

end Cert.KernelIdeal.Glue

end
-- ==== Proof.PayloadProj.lean ====
/-
  The projection kernel's three stored values, read at one entry of the block: a row of the activation block times a
  column of the weight matrix, summed over the 512 input features, plus the bias entry of that column.  At the
  extended reals the conversions to and from the narrower float format are the identity and the matrix unit's
  product into a zero accumulator is the plain sum of products.
-/
import proofs.«152242_j2465311228213_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-- The left operand's row coordinate is the result's row coordinate. -/
theorem dotP_lhs_0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- The left operand's column coordinate is the contracted coordinate. -/
theorem dotP_lhs_1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contracted coordinate. -/
theorem dotP_rhs_0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate is the result's column coordinate. -/
theorem dotP_rhs_1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The matrix unit's product of a [1024, 512] block by a [512, 512] matrix into a zero accumulator, at entry (r, e):
    the sum over the 512 contracted coordinates of the products of the entries. -/
theorem matmul_plain_apply (x : FVec Ideal S1024x512 .bf16) (w : FVec Ideal S512x512 .bf16) (r : Fin 1024) (e : Fin 512) :
    matmul dot_S1024x512_S512x512_S1024x512_1_0_0_1_n_n none x w (constant S1024x512 .f32 0x00000000#32) (ix2 r e)
      = ∑ d : Fin 512, x (ix2 r d) * w (ix2 d e) := by
  show FloatOps.matmul _ none x w (constant S1024x512 .f32 0x00000000#32) (ix2 r e) = _
  rw [Ideal.matmul_constant_zero_apply, ← Equiv.sum_comp (contrEquiv1 dot_S1024x512_S512x512_S1024x512_1_0_0_1_n_n 512 rfl rfl).symm]
  refine Finset.sum_congr rfl fun d _ => ?_
  have hd := contrEquiv1_symm_val dot_S1024x512_S512x512_S1024x512_1_0_0_1_n_n 512 rfl rfl d
  have el : dot_S1024x512_S512x512_S1024x512_1_0_0_1_n_n.lhsIdx (ix2 r e) ((contrEquiv1 dot_S1024x512_S512x512_S1024x512_1_0_0_1_n_n 512 rfl rfl).symm d) = ix2 r d :=
    funext fun a => Fin.ext (by
      match a with
      | ⟨0, _⟩ => exact dotP_lhs_0 _ _
      | ⟨1, _⟩ => exact (dotP_lhs_1 _ _).trans hd)
  have er : dot_S1024x512_S512x512_S1024x512_1_0_0_1_n_n.rhsIdx (ix2 r e) ((contrEquiv1 dot_S1024x512_S512x512_S1024x512_1_0_0_1_n_n 512 rfl rfl).symm d) = ix2 d e :=
    funext fun a => Fin.ext (by
      match a with
      | ⟨0, _⟩ => exact (dotP_rhs_0 _ _).trans hd
      | ⟨1, _⟩ => exact dotP_rhs_1 _ _)
  rw [el, er]

/-- The common shape of the three stored values: the product of the activation block by a weight matrix, plus the
    bias row laid along every row; the format changes and the same-shape casts are the identity. -/
theorem proj_body_apply (x : Vec Ideal S1024x512 .f32) (w : Vec Ideal S512x512 .f32) (b : Vec Ideal S1x512 .f32)
    (r : Fin 1024) (e : Fin 512) :
    (truncf .bf16
      (addf
        (matmul dot_S1024x512_S512x512_S1024x512_1_0_0_1_n_n none (k0_pay1 (F := Ideal) x)
          (truncf .bf16 w Facts₀.bitsLt_bf16_f32) (constant S1024x512 .f32 0x00000000#32))
        (broadcastTo S1024x512 (shapeCast S1x512 b Facts₀.shapeCasts_S1x512_S1x512) Facts₀.broadcasts_S1x512_S1024x512))
      Facts₀.bitsLt_bf16_f32 : FVec Ideal S1024x512 .bf16) (ix2 r e)
      = (∑ d : Fin 512, x (ix2 r d) * w (ix2 d e)) + b (ix2 (0 : Fin 1) e) := by
  rw [truncf_apply, addf_apply, matmul_plain_apply, broadcastTo_1b_ab_apply, shapeCast_self]
  refine congrArg (· + b (ix2 (0 : Fin 1) e)) (Finset.sum_congr rfl fun d _ => ?_)
  unfold k0_pay1
  rw [truncf_apply, truncf_apply, shapeCast_self]

/-- Entry (r, e) of the first stored block: row r of the activations against column e of the first weight matrix, plus its bias. -/
theorem k0_pay2_apply (v0 : Vec Ideal S1024x512 .f32) (v3 : Vec Ideal S512x512 .f32) (v10 : Vec Ideal S1x512 .f32)
    (r : Fin 1024) (e : Fin 512) :
    k0_pay2 (F := Ideal) v0 v3 v10 (ix2 r e)
      = (∑ d : Fin 512, v0 (ix2 r d) * v3 (ix2 d e)) + v10 (ix2 (0 : Fin 1) e) :=
  proj_body_apply v0 v3 v10 r e

/-- The same for the second stored block. -/
theorem k0_pay3_apply (v0 : Vec Ideal S1024x512 .f32) (v5 : Vec Ideal S512x512 .f32) (v15 : Vec Ideal S1x512 .f32)
    (r : Fin 1024) (e : Fin 512) :
    k0_pay3 (F := Ideal) v0 v5 v15 (ix2 r e)
      = (∑ d : Fin 512, v0 (ix2 r d) * v5 (ix2 d e)) + v15 (ix2 (0 : Fin 1) e) :=
  proj_body_apply v0 v5 v15 r e

/-- The same for the third stored block. -/
theorem k0_pay4_apply (v0 : Vec Ideal S1024x512 .f32) (v7 : Vec Ideal S512x512 .f32) (v20 : Vec Ideal S1x512 .f32)
    (r : Fin 1024) (e : Fin 512) :
    k0_pay4 (F := Ideal) v0 v7 v20 (ix2 r e)
      = (∑ d : Fin 512, v0 (ix2 r d) * v7 (ix2 d e)) + v20 (ix2 (0 : Fin 1) e) :=
  proj_body_apply v0 v7 v20 r e

end Cert.KernelIdeal.Payload

end
-- ==== Proof.ProjArrays.lean ====
/-
  The projection region's three result arrays, whole.

  The region walks sixteen grid points.  Point t reads rows 1024·t … 1024·t + 1023 of the 16384 × 512 activation
  matrix, and for each of its three results a whole 512 × 512 weight matrix and a whole 1 × 512 bias row; it writes rows
  1024·t … 1024·t + 1023 of each of three result matrices.  Entry (r, e) of a written block is
  Σ_d X[1024·t + r, d] · W[d, e] + B[0, e], which is entry (1024·t + r, e) of X · W + B taken over the whole matrix.
  The sixteen row blocks cover all 16384 rows (row p lies in block p / 1024), so after the last write-back each result
  array is X · W + B.
-/
import proofs.«152242_j2465311228213_2_alg».proof.Proof.Gen.KernelIdeal.Frame
import proofs.«152242_j2465311228213_2_alg».proof.Proof.PayloadProj
import proofs.«152242_j2465311228213_2_alg».proof.Proof.Layout
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Payload Cert.Attention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem zeroOffsets : (![0, 0] : Fin 2 → Nat) = fun _ => 0 := funext fun a => by fin_cases a <;> rfl

/-- The block indices of the ten windows at every grid point: the activation and result windows sit at block row t,
    the weight and bias windows at the origin. -/
theorem blockIndices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Entry (r, d) of the activation block at point t is entry (1024 t + r, d) of the activation array. -/
theorem rowsBlock_apply (t : Fin cfg0.N) (y : S1024x512.Idx) (i : S16384x512.Idx)
    (h0 : (i 0).val = t.val * 1024 + (y 0).val) (h1 : (i 1).val = (y 1).val) :
    (iblk0 V c 0 t : Vec Ideal S1024x512 .f32) y = (V c main_v0 : S16384x512.Idx → EReal) i := by
  obtain ⟨⟨e0, e1⟩, -⟩ := blockIndices t
  unfold iblk0
  rw [View.read_apply]
  show V c main_v0 _ = V c main_v0 _
  congr 1
  funext a
  apply Fin.ext
  match a with
  | ⟨0, _⟩ => show win0_0.index t 0 * 1024 + 1 * (y 0).val = (i 0).val; rw [e0, h0]; omega
  | ⟨1, _⟩ => show win0_0.index t 1 * 512 + 1 * (y 1).val = (i 1).val; rw [e1, h1]; omega

/-- A weight window's block is the whole matrix, and a bias window's block the whole row, at every point. -/
theorem matBlock1 (t : Fin cfg0.N) :
    (iblk0 V c 1 t : Vec Ideal S512x512 .f32) = (V c main_arg1 : S512x512.Idx → EReal) := by
  obtain ⟨e0, e1⟩ := (blockIndices t).2.1
  funext y
  unfold iblk0
  rw [View.read_apply]
  show V c main_arg1 _ = V c main_arg1 _
  congr 1
  funext a
  apply Fin.ext
  match a with
  | ⟨0, _⟩ => show win0_1.index t 0 * 512 + 1 * (y 0).val = (y 0).val; rw [e0]; omega
  | ⟨1, _⟩ => show win0_1.index t 1 * 512 + 1 * (y 1).val = (y 1).val; rw [e1]; omega

theorem biasBlock2 (t : Fin cfg0.N) :
    (iblk0 V c 2 t : Vec Ideal S1x512 .f32) = (V c main_v1 : S1x512.Idx → EReal) := by
  obtain ⟨e0, e1⟩ := (blockIndices t).2.2.1
  funext y
  unfold iblk0
  rw [View.read_apply]
  show V c main_v1 _ = V c main_v1 _
  congr 1
  funext a
  apply Fin.ext
  match a with
  | ⟨0, _⟩ => show win0_2.index t 0 * 1 + 1 * (y 0).val = (y 0).val; rw [e0]; omega
  | ⟨1, _⟩ => show win0_2.index t 1 * 512 + 1 * (y 1).val = (y 1).val; rw [e1]; omega

theorem matBlock3 (t : Fin cfg0.N) :
    (iblk0 V c 3 t : Vec Ideal S512x512 .f32) = (V c main_arg3 : S512x512.Idx → EReal) := by
  obtain ⟨e0, e1⟩ := (blockIndices t).2.2.2.1
  funext y
  unfold iblk0
  rw [View.read_apply]
  show V c main_arg3 _ = V c main_arg3 _
  congr 1
  funext a
  apply Fin.ext
  match a with
  | ⟨0, _⟩ => show win0_3.index t 0 * 512 + 1 * (y 0).val = (y 0).val; rw [e0]; omega
  | ⟨1, _⟩ => show win0_3.index t 1 * 512 + 1 * (y 1).val = (y 1).val; rw [e1]; omega

theorem biasBlock4 (t : Fin cfg0.N) :
    (iblk0 V c 4 t : Vec Ideal S1x512 .f32) = (V c main_v2 : S1x512.Idx → EReal) := by
  obtain ⟨e0, e1⟩ := (blockIndices t).2.2.2.2.1
  funext y
  unfold iblk0
  rw [View.read_apply]
  show V c main_v2 _ = V c main_v2 _
  congr 1
  funext a
  apply Fin.ext
  match a with
  | ⟨0, _⟩ => show win0_4.index t 0 * 1 + 1 * (y 0).val = (y 0).val; rw [e0]; omega
  | ⟨1, _⟩ => show win0_4.index t 1 * 512 + 1 * (y 1).val = (y 1).val; rw [e1]; omega

theorem matBlock5 (t : Fin cfg0.N) :
    (iblk0 V c 5 t : Vec Ideal S512x512 .f32) = (V c main_arg5 : S512x512.Idx → EReal) := by
  obtain ⟨e0, e1⟩ := (blockIndices t).2.2.2.2.2.1
  funext y
  unfold iblk0
  rw [View.read_apply]
  show V c main_arg5 _ = V c main_arg5 _
  congr 1
  funext a
  apply Fin.ext
  match a with
  | ⟨0, _⟩ => show win0_5.index t 0 * 512 + 1 * (y 0).val = (y 0).val; rw [e0]; omega
  | ⟨1, _⟩ => show win0_5.index t 1 * 512 + 1 * (y 1).val = (y 1).val; rw [e1]; omega

theorem biasBlock6 (t : Fin cfg0.N) :
    (iblk0 V c 6 t : Vec Ideal S1x512 .f32) = (V c main_v3 : S1x512.Idx → EReal) := by
  obtain ⟨e0, e1⟩ := (blockIndices t).2.2.2.2.2.2.1
  funext y
  unfold iblk0
  rw [View.read_apply]
  show V c main_v3 _ = V c main_v3 _
  congr 1
  funext a
  apply Fin.ext
  match a with
  | ⟨0, _⟩ => show win0_6.index t 0 * 1 + 1 * (y 0).val = (y 0).val; rw [e0]; omega
  | ⟨1, _⟩ => show win0_6.index t 1 * 512 + 1 * (y 1).val = (y 1).val; rw [e1]; omega

/-- One entry of a stored block against the whole-array projection: when row r of the block is row p of the array,
    entry (r, e) of the block's product-plus-bias is entry (p, e) of the array's. -/
theorem projEntry (pay : Vec Ideal S1024x512 .f32 → Vec Ideal S512x512 .f32 → Vec Ideal S1x512 .f32 → Vec Ideal S1024x512 .bf16)
    (hpay : ∀ (v0 : Vec Ideal S1024x512 .f32) (v3 : Vec Ideal S512x512 .f32) (v10 : Vec Ideal S1x512 .f32) (r : Fin 1024) (e : Fin 512),
      pay v0 v3 v10 (ix2 r e) = (∑ d : Fin 512, v0 (ix2 r d) * v3 (ix2 d e)) + v10 (ix2 (0 : Fin 1) e))
    (X : Rows) (W : Mat) (B : BiasRow) (x0 : Vec Ideal S1024x512 .f32) (r : Fin 1024) (e : Fin 512) (p : Fin 16384)
    (hx : ∀ d : Fin 512, x0 (ix2 r d) = X (ix2 p d)) :
    pay x0 W B (ix2 r e) = projRows X W B (ix2 p e) := by
  rw [hpay, projRows_ix2]
  exact congrArg (· + B (ix2 (0 : Fin 1) e)) (Finset.sum_congr rfl fun d _ => by rw [hx d])

/-- What point t writes back to result window 7 is block t of the whole-array projection. -/
theorem flushed7_eq (t : Fin cfg0.N) :
    (dat0 (F := Ideal) V c).flushed 7 t
      = ((cfg0.win 7).blk t).view.read (Elt Ideal) (projRows (V c main_v0) (V c main_arg1) (V c main_v1)) := by
  show (cfg0.win 7).cut (grid0.coords t) ((dat0 V c).after 7 t) = _
  rw [after0_7]
  unfold out0_7
  rw [View.canon_unit_zero zeroOffsets]
  simp only [View.ld_unit_zero (S := S1024x512) zeroOffsets, View.ld_unit_zero (S := S512x512) zeroOffsets,
    View.ld_unit_zero (S := S1x512) zeroOffsets]
  rw [matBlock1 V c t, biasBlock2 V c t]
  obtain ⟨e0, e1⟩ := (blockIndices t).2.2.2.2.2.2.2.1
  have ht : t.val < 16 := lt_of_lt_of_eq t.isLt N_0
  refine funext fun (j : S1024x512.Idx) => ?_
  have hj0 : (j 0).val < 1024 := (j 0).isLt
  have hp : t.val * 1024 + (j 0).val < 16384 := by omega
  have hemb : ((cfg0.win 7).blk t).view.emb j = (ix2 (⟨t.val * 1024 + (j 0).val, hp⟩ : Fin 16384) (j 1) : S16384x512.Idx) := by
    funext a
    apply Fin.ext
    match a with
    | ⟨0, _⟩ => show win0_7.index t 0 * 1024 + 1 * (j 0).val = t.val * 1024 + (j 0).val; rw [e0]; omega
    | ⟨1, _⟩ => show win0_7.index t 1 * 512 + 1 * (j 1).val = (j 1).val; rw [e1]; omega
  show k0_pay2 (F := Ideal) (iblk0 V c 0 t) (V c main_arg1) (V c main_v1) j
      = projRows (V c main_v0) (V c main_arg1) (V c main_v1) (((cfg0.win 7).blk t).view.emb j)
  rw [hemb]
  refine (congrArg _ (eq_ix2 j)).trans ?_
  exact projEntry k0_pay2 k0_pay2_apply _ _ _ (iblk0 V c 0 t) (j 0) (j 1) _
    (fun d => rowsBlock_apply V c t (ix2 (j 0) d) (ix2 (⟨t.val * 1024 + (j 0).val, hp⟩ : Fin 16384) d) rfl rfl)

/-- An index of the array is in point t's block of result window 7 iff each coordinate is in the block's range. -/
theorem mem_block7 (t : Fin cfg0.N) (i : S16384x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v4_0).slice (win0_7.rect t)).set ↔ _
  rw [View.set_slice_whole, Rect.mem_set_unit]
  exact Iff.rfl

/-- Row p of the array lies in the block of point p / 1024. -/
theorem cover7 (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  obtain ⟨t, htv⟩ : ∃ t : Fin cfg0.N, t.val = (i 0).val / 1024 :=
    ⟨⟨(i 0).val / 1024, by rw [show cfg0.N = 16 from N_0]; omega⟩, rfl⟩
  obtain ⟨e0, e1⟩ := (blockIndices t).2.2.2.2.2.2.2.1
  refine ⟨t, flush0_7 t, ?_⟩
  rw [mem_block7]
  intro a
  match a with
  | ⟨0, _⟩ =>
    show win0_7.index t (0 : Fin 2) * 1024 ≤ (i 0).val ∧ (i 0).val < win0_7.index t (0 : Fin 2) * 1024 + 1024
    rw [e0]; omega
  | ⟨1, _⟩ =>
    show win0_7.index t (1 : Fin 2) * 512 ≤ (i 1).val ∧ (i 1).val < win0_7.index t (1 : Fin 2) * 512 + 512
    rw [e1]; omega

/-- What point t writes back to result window 8 is block t of the whole-array projection. -/
theorem flushed8_eq (t : Fin cfg0.N) :
    (dat0 (F := Ideal) V c).flushed 8 t
      = ((cfg0.win 8).blk t).view.read (Elt Ideal) (projRows (V c main_v0) (V c main_arg3) (V c main_v2)) := by
  show (cfg0.win 8).cut (grid0.coords t) ((dat0 V c).after 8 t) = _
  rw [after0_8]
  unfold out0_8
  rw [View.canon_unit_zero zeroOffsets]
  simp only [View.ld_unit_zero (S := S1024x512) zeroOffsets, View.ld_unit_zero (S := S512x512) zeroOffsets,
    View.ld_unit_zero (S := S1x512) zeroOffsets]
  rw [matBlock3 V c t, biasBlock4 V c t]
  obtain ⟨e0, e1⟩ := (blockIndices t).2.2.2.2.2.2.2.2.1
  have ht : t.val < 16 := lt_of_lt_of_eq t.isLt N_0
  refine funext fun (j : S1024x512.Idx) => ?_
  have hj0 : (j 0).val < 1024 := (j 0).isLt
  have hp : t.val * 1024 + (j 0).val < 16384 := by omega
  have hemb : ((cfg0.win 8).blk t).view.emb j = (ix2 (⟨t.val * 1024 + (j 0).val, hp⟩ : Fin 16384) (j 1) : S16384x512.Idx) := by
    funext a
    apply Fin.ext
    match a with
    | ⟨0, _⟩ => show win0_8.index t 0 * 1024 + 1 * (j 0).val = t.val * 1024 + (j 0).val; rw [e0]; omega
    | ⟨1, _⟩ => show win0_8.index t 1 * 512 + 1 * (j 1).val = (j 1).val; rw [e1]; omega
  show k0_pay3 (F := Ideal) (iblk0 V c 0 t) (V c main_arg3) (V c main_v2) j
      = projRows (V c main_v0) (V c main_arg3) (V c main_v2) (((cfg0.win 8).blk t).view.emb j)
  rw [hemb]
  refine (congrArg _ (eq_ix2 j)).trans ?_
  exact projEntry k0_pay3 k0_pay3_apply _ _ _ (iblk0 V c 0 t) (j 0) (j 1) _
    (fun d => rowsBlock_apply V c t (ix2 (j 0) d) (ix2 (⟨t.val * 1024 + (j 0).val, hp⟩ : Fin 16384) d) rfl rfl)

/-- An index of the array is in point t's block of result window 8 iff each coordinate is in the block's range. -/
theorem mem_block8 (t : Fin cfg0.N) (i : S16384x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v4_1).slice (win0_8.rect t)).set ↔ _
  rw [View.set_slice_whole, Rect.mem_set_unit]
  exact Iff.rfl

/-- Row p of the array lies in the block of point p / 1024. -/
theorem cover8 (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  obtain ⟨t, htv⟩ : ∃ t : Fin cfg0.N, t.val = (i 0).val / 1024 :=
    ⟨⟨(i 0).val / 1024, by rw [show cfg0.N = 16 from N_0]; omega⟩, rfl⟩
  obtain ⟨e0, e1⟩ := (blockIndices t).2.2.2.2.2.2.2.2.1
  refine ⟨t, flush0_8 t, ?_⟩
  rw [mem_block8]
  intro a
  match a with
  | ⟨0, _⟩ =>
    show win0_8.index t (0 : Fin 2) * 1024 ≤ (i 0).val ∧ (i 0).val < win0_8.index t (0 : Fin 2) * 1024 + 1024
    rw [e0]; omega
  | ⟨1, _⟩ =>
    show win0_8.index t (1 : Fin 2) * 512 ≤ (i 1).val ∧ (i 1).val < win0_8.index t (1 : Fin 2) * 512 + 512
    rw [e1]; omega

/-- What point t writes back to result window 9 is block t of the whole-array projection. -/
theorem flushed9_eq (t : Fin cfg0.N) :
    (dat0 (F := Ideal) V c).flushed 9 t
      = ((cfg0.win 9).blk t).view.read (Elt Ideal) (projRows (V c main_v0) (V c main_arg5) (V c main_v3)) := by
  show (cfg0.win 9).cut (grid0.coords t) ((dat0 V c).after 9 t) = _
  rw [after0_9]
  unfold out0_9
  rw [View.canon_unit_zero zeroOffsets]
  simp only [View.ld_unit_zero (S := S1024x512) zeroOffsets, View.ld_unit_zero (S := S512x512) zeroOffsets,
    View.ld_unit_zero (S := S1x512) zeroOffsets]
  rw [matBlock5 V c t, biasBlock6 V c t]
  obtain ⟨e0, e1⟩ := (blockIndices t).2.2.2.2.2.2.2.2.2
  have ht : t.val < 16 := lt_of_lt_of_eq t.isLt N_0
  refine funext fun (j : S1024x512.Idx) => ?_
  have hj0 : (j 0).val < 1024 := (j 0).isLt
  have hp : t.val * 1024 + (j 0).val < 16384 := by omega
  have hemb : ((cfg0.win 9).blk t).view.emb j = (ix2 (⟨t.val * 1024 + (j 0).val, hp⟩ : Fin 16384) (j 1) : S16384x512.Idx) := by
    funext a
    apply Fin.ext
    match a with
    | ⟨0, _⟩ => show win0_9.index t 0 * 1024 + 1 * (j 0).val = t.val * 1024 + (j 0).val; rw [e0]; omega
    | ⟨1, _⟩ => show win0_9.index t 1 * 512 + 1 * (j 1).val = (j 1).val; rw [e1]; omega
  show k0_pay4 (F := Ideal) (iblk0 V c 0 t) (V c main_arg5) (V c main_v3) j
      = projRows (V c main_v0) (V c main_arg5) (V c main_v3) (((cfg0.win 9).blk t).view.emb j)
  rw [hemb]
  refine (congrArg _ (eq_ix2 j)).trans ?_
  exact projEntry k0_pay4 k0_pay4_apply _ _ _ (iblk0 V c 0 t) (j 0) (j 1) _
    (fun d => rowsBlock_apply V c t (ix2 (j 0) d) (ix2 (⟨t.val * 1024 + (j 0).val, hp⟩ : Fin 16384) d) rfl rfl)

/-- An index of the array is in point t's block of result window 9 iff each coordinate is in the block's range. -/
theorem mem_block9 (t : Fin cfg0.N) (i : S16384x512.Idx) :
    i ∈ ((cfg0.win 9).blk t).view.set ↔ ∀ a : Fin 2, win0_9.index t a * S1024x512.size a ≤ (i a).val
      ∧ (i a).val < win0_9.index t a * S1024x512.size a + S1024x512.size a := by
  show i ∈ ((View.whole main_v4_2).slice (win0_9.rect t)).set ↔ _
  rw [View.set_slice_whole, Rect.mem_set_unit]
  exact Iff.rfl

/-- Row p of the array lies in the block of point p / 1024. -/
theorem cover9 (i : S16384x512.Idx) :
    ∃ t : Fin cfg0.N, (cfg0.win 9).flush t = true ∧ i ∈ ((cfg0.win 9).blk t).view.set := by
  have hi0 : (i 0).val < 16384 := (i 0).isLt
  have hi1 : (i 1).val < 512 := (i 1).isLt
  obtain ⟨t, htv⟩ : ∃ t : Fin cfg0.N, t.val = (i 0).val / 1024 :=
    ⟨⟨(i 0).val / 1024, by rw [show cfg0.N = 16 from N_0]; omega⟩, rfl⟩
  obtain ⟨e0, e1⟩ := (blockIndices t).2.2.2.2.2.2.2.2.2
  refine ⟨t, flush0_9 t, ?_⟩
  rw [mem_block9]
  intro a
  match a with
  | ⟨0, _⟩ =>
    show win0_9.index t (0 : Fin 2) * 1024 ≤ (i 0).val ∧ (i 0).val < win0_9.index t (0 : Fin 2) * 1024 + 1024
    rw [e0]; omega
  | ⟨1, _⟩ =>
    show win0_9.index t (1 : Fin 2) * 512 ≤ (i 1).val ∧ (i 1).val < win0_9.index t (1 : Fin 2) * 512 + 512
    rw [e1]; omega

/-! ## The three result arrays after the region -/

/-- After the sixteen write-backs the first result array is the activations times the first weight matrix plus its bias row. -/
theorem arr0_7 : (dat0 (F := Ideal) V c).arrAt 7 cfg0.N
    = projRows (V c (Pipeline.arrRef spec0 0)) (V c (Pipeline.arrRef spec0 1)) (V c (Pipeline.arrRef spec0 2)) :=
  (dat0 (F := Ideal) V c).arrAt_eq_of_cover 7 _ (fun t _ => flushed7_eq V c t) cover7

/-- The second result array: the same activations against the second weight matrix and bias row. -/
theorem arr0_8 : (dat0 (F := Ideal) V c).arrAt 8 cfg0.N
    = projRows (V c (Pipeline.arrRef spec0 0)) (V c (Pipeline.arrRef spec0 3)) (V c (Pipeline.arrRef spec0 4)) :=
  (dat0 (F := Ideal) V c).arrAt_eq_of_cover 8 _ (fun t _ => flushed8_eq V c t) cover8

/-- The third result array: the same activations against the third weight matrix and bias row. -/
theorem arr0_9 : (dat0 (F := Ideal) V c).arrAt 9 cfg0.N
    = projRows (V c (Pipeline.arrRef spec0 0)) (V c (Pipeline.arrRef spec0 5)) (V c (Pipeline.arrRef spec0 6)) :=
  (dat0 (F := Ideal) V c).arrAt_eq_of_cover 9 _ (fun t _ => flushed9_eq V c t) cover9

end Cert.KernelIdeal.Arrays

end
-- ==== Proof.PayloadAttn.lean ====
/-
  The attention kernel's stored value, read at one entry of the block: for query row i of the block and output
  column e, the scores against all 2048 key rows, their maximum, the exponentials of the differences, and the
  exponential-weighted sum of column e of the value rows divided by the sum of the exponentials.
-/
import proofs.«152242_j2465311228213_2_alg».proof.Proof.Gen.KernelIdeal.Skeleton
import proofs.«152242_j2465311228213_2_alg».proof.Proof.Spec
import proofs.«152242_j2465311228213_2_alg».proof.Proof.LibRankThreeForms
import proofs.«152242_j2465311228213_2_alg».proof.Proof.LibHostMaxForms
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Attention

/-- The first product (queries against keys): the left operand is read at (batch, query row, contracted), the right at
    (batch, key row, contracted). -/
theorem dotQK_lhs_0 (i : S1x512x2048.Idx) (q : dot_S1x512x512_S1x2048x512_S1x512x2048_2_2_1_1_0_0.contr.Idx) : (dot_S1x512x512_S1x2048x512_S1x512x2048_2_2_1_1_0_0.lhsIdx i q 0).val = (i 0).val := by
  unfold DotDims.lhsIdx
  rw [dif_pos (show (0 : Fin S1x512x512.rank) ∈ dot_S1x512x512_S1x2048x512_S1x512x2048_2_2_1_1_0_0.lhsBatch by decide)]
  rfl
theorem dotQK_lhs_1 (i : S1x512x2048.Idx) (q : dot_S1x512x512_S1x2048x512_S1x512x2048_2_2_1_1_0_0.contr.Idx) : (dot_S1x512x512_S1x2048x512_S1x512x2048_2_2_1_1_0_0.lhsIdx i q 1).val = (i 1).val := by
  unfold DotDims.lhsIdx
  rw [dif_neg (show ¬(1 : Fin S1x512x512.rank) ∈ dot_S1x512x512_S1x2048x512_S1x512x2048_2_2_1_1_0_0.lhsBatch by decide),
    dif_pos (show (1 : Fin S1x512x512.rank) ∈ dot_S1x512x512_S1x2048x512_S1x512x2048_2_2_1_1_0_0.lhsNonContracting by decide)]
  rfl
theorem dotQK_lhs_2 (i : S1x512x2048.Idx) (q : dot_S1x512x512_S1x2048x512_S1x512x2048_2_2_1_1_0_0.contr.Idx) : (dot_S1x512x512_S1x2048x512_S1x512x2048_2_2_1_1_0_0.lhsIdx i q 2).val = (q ⟨0, by decide⟩).val :=
  dot_S1x512x512_S1x2048x512_S1x512x2048_2_2_1_1_0_0.lhsIdx_val_of_single rfl i q
theorem dotQK_rhs_0 (i : S1x512x2048.Idx) (q : dot_S1x512x512_S1x2048x512_S1x512x2048_2_2_1_1_0_0.contr.Idx) : (dot_S1x512x512_S1x2048x512_S1x512x2048_2_2_1_1_0_0.rhsIdx i q 0).val = (i 0).val := by
  unfold DotDims.rhsIdx
  rw [dif_pos (show (0 : Fin S1x2048x512.rank) ∈ dot_S1x512x512_S1x2048x512_S1x512x2048_2_2_1_1_0_0.rhsBatch by decide)]
  rfl
theorem dotQK_rhs_1 (i : S1x512x2048.Idx) (q : dot_S1x512x512_S1x2048x512_S1x512x2048_2_2_1_1_0_0.contr.Idx) : (dot_S1x512x512_S1x2048x512_S1x512x2048_2_2_1_1_0_0.rhsIdx i q 1).val = (i 2).val := by
  unfold DotDims.rhsIdx
  rw [dif_neg (show ¬(1 : Fin S1x2048x512.rank) ∈ dot_S1x512x512_S1x2048x512_S1x512x2048_2_2_1_1_0_0.rhsBatch by decide),
    dif_pos (show (1 : Fin S1x2048x512.rank) ∈ dot_S1x512x512_S1x2048x512_S1x512x2048_2_2_1_1_0_0.rhsNonContracting by decide)]
  rfl
theorem dotQK_rhs_2 (i : S1x512x2048.Idx) (q : dot_S1x512x512_S1x2048x512_S1x512x2048_2_2_1_1_0_0.contr.Idx) : (dot_S1x512x512_S1x2048x512_S1x512x2048_2_2_1_1_0_0.rhsIdx i q 2).val = (q ⟨0, by decide⟩).val :=
  dot_S1x512x512_S1x2048x512_S1x512x2048_2_2_1_1_0_0.rhsIdx_val_of_single rfl i q

/-- The scores: the matrix unit's batched product of the query block by the key block, contracting the feature axis of
    both, into a zero accumulator; entry (0, i, j) is the sum over the 512 features of the products. -/
theorem scores_apply (q : FVec Ideal S1x512x512 .bf16) (k : FVec Ideal S1x2048x512 .bf16) (i : Fin 512) (j : Fin 2048) :
    matmul dot_S1x512x512_S1x2048x512_S1x512x2048_2_2_1_1_0_0 none q k (constant S1x512x2048 .f32 0x00000000#32) (ix3 (0 : Fin 1) i j)
      = ∑ d : Fin 512, q (ix3 (0 : Fin 1) i d) * k (ix3 (0 : Fin 1) j d) := by
  show FloatOps.matmul _ none q k (constant S1x512x2048 .f32 0x00000000#32) (ix3 (0 : Fin 1) i j) = _
  rw [Ideal.matmul_constant_zero_apply, ← Equiv.sum_comp (contrEquiv1 dot_S1x512x512_S1x2048x512_S1x512x2048_2_2_1_1_0_0 512 rfl rfl).symm]
  refine Finset.sum_congr rfl fun d _ => ?_
  have hd := contrEquiv1_symm_val dot_S1x512x512_S1x2048x512_S1x512x2048_2_2_1_1_0_0 512 rfl rfl d
  have el : dot_S1x512x512_S1x2048x512_S1x512x2048_2_2_1_1_0_0.lhsIdx (ix3 (0 : Fin 1) i j) ((contrEquiv1 dot_S1x512x512_S1x2048x512_S1x512x2048_2_2_1_1_0_0 512 rfl rfl).symm d) = ix3 (0 : Fin 1) i d :=
    funext fun a => Fin.ext (by
      match a with
      | ⟨0, _⟩ => exact dotQK_lhs_0 _ _
      | ⟨1, _⟩ => exact dotQK_lhs_1 _ _
      | ⟨2, _⟩ => exact (dotQK_lhs_2 _ _).trans hd)
  have er : dot_S1x512x512_S1x2048x512_S1x512x2048_2_2_1_1_0_0.rhsIdx (ix3 (0 : Fin 1) i j) ((contrEquiv1 dot_S1x512x512_S1x2048x512_S1x512x2048_2_2_1_1_0_0 512 rfl rfl).symm d) = ix3 (0 : Fin 1) j d :=
    funext fun a => Fin.ext (by
      match a with
      | ⟨0, _⟩ => exact dotQK_rhs_0 _ _
      | ⟨1, _⟩ => exact dotQK_rhs_1 _ _
      | ⟨2, _⟩ => exact (dotQK_rhs_2 _ _).trans hd)
  rw [el, er]

/-- The second product (weights against values): the left operand is read at (batch, query row, contracted), the right
    at (batch, contracted, output column). -/
theorem dotPV_lhs_0 (i : S1x512x512.Idx) (q : dot_S1x512x2048_S1x2048x512_S1x512x512_2_1_1_2_0_0.contr.Idx) : (dot_S1x512x2048_S1x2048x512_S1x512x512_2_1_1_2_0_0.lhsIdx i q 0).val = (i 0).val := by
  unfold DotDims.lhsIdx
  rw [dif_pos (show (0 : Fin S1x512x2048.rank) ∈ dot_S1x512x2048_S1x2048x512_S1x512x512_2_1_1_2_0_0.lhsBatch by decide)]
  rfl
theorem dotPV_lhs_1 (i : S1x512x512.Idx) (q : dot_S1x512x2048_S1x2048x512_S1x512x512_2_1_1_2_0_0.contr.Idx) : (dot_S1x512x2048_S1x2048x512_S1x512x512_2_1_1_2_0_0.lhsIdx i q 1).val = (i 1).val := by
  unfold DotDims.lhsIdx
  rw [dif_neg (show ¬(1 : Fin S1x512x2048.rank) ∈ dot_S1x512x2048_S1x2048x512_S1x512x512_2_1_1_2_0_0.lhsBatch by decide),
    dif_pos (show (1 : Fin S1x512x2048.rank) ∈ dot_S1x512x2048_S1x2048x512_S1x512x512_2_1_1_2_0_0.lhsNonContracting by decide)]
  rfl
theorem dotPV_lhs_2 (i : S1x512x512.Idx) (q : dot_S1x512x2048_S1x2048x512_S1x512x512_2_1_1_2_0_0.contr.Idx) : (dot_S1x512x2048_S1x2048x512_S1x512x512_2_1_1_2_0_0.lhsIdx i q 2).val = (q ⟨0, by decide⟩).val :=
  dot_S1x512x2048_S1x2048x512_S1x512x512_2_1_1_2_0_0.lhsIdx_val_of_single rfl i q
theorem dotPV_rhs_0 (i : S1x512x512.Idx) (q : dot_S1x512x2048_S1x2048x512_S1x512x512_2_1_1_2_0_0.contr.Idx) : (dot_S1x512x2048_S1x2048x512_S1x512x512_2_1_1_2_0_0.rhsIdx i q 0).val = (i 0).val := by
  unfold DotDims.rhsIdx
  rw [dif_pos (show (0 : Fin S1x2048x512.rank) ∈ dot_S1x512x2048_S1x2048x512_S1x512x512_2_1_1_2_0_0.rhsBatch by decide)]
  rfl
theorem dotPV_rhs_1 (i : S1x512x512.Idx) (q : dot_S1x512x2048_S1x2048x512_S1x512x512_2_1_1_2_0_0.contr.Idx) : (dot_S1x512x2048_S1x2048x512_S1x512x512_2_1_1_2_0_0.rhsIdx i q 1).val = (q ⟨0, by decide⟩).val :=
  dot_S1x512x2048_S1x2048x512_S1x512x512_2_1_1_2_0_0.rhsIdx_val_of_single rfl i q
theorem dotPV_rhs_2 (i : S1x512x512.Idx) (q : dot_S1x512x2048_S1x2048x512_S1x512x512_2_1_1_2_0_0.contr.Idx) : (dot_S1x512x2048_S1x2048x512_S1x512x512_2_1_1_2_0_0.rhsIdx i q 2).val = (i 2).val := by
  unfold DotDims.rhsIdx
  rw [dif_neg (show ¬(2 : Fin S1x2048x512.rank) ∈ dot_S1x512x2048_S1x2048x512_S1x512x512_2_1_1_2_0_0.rhsBatch by decide),
    dif_pos (show (2 : Fin S1x2048x512.rank) ∈ dot_S1x512x2048_S1x2048x512_S1x512x512_2_1_1_2_0_0.rhsNonContracting by decide)]
  rfl

/-- The weighted sum: the matrix unit's batched product of the weight block by the value block, contracting the key
    axis, into a zero accumulator; entry (0, i, e) is the sum over the 2048 key rows of weight times value. -/
theorem weighted_apply (p : FVec Ideal S1x512x2048 .bf16) (v : FVec Ideal S1x2048x512 .bf16) (i : Fin 512) (e : Fin 512) :
    matmul dot_S1x512x2048_S1x2048x512_S1x512x512_2_1_1_2_0_0 none p v (constant S1x512x512 .f32 0x00000000#32) (ix3 (0 : Fin 1) i e)
      = ∑ j : Fin 2048, p (ix3 (0 : Fin 1) i j) * v (ix3 (0 : Fin 1) j e) := by
  show FloatOps.matmul _ none p v (constant S1x512x512 .f32 0x00000000#32) (ix3 (0 : Fin 1) i e) = _
  rw [Ideal.matmul_constant_zero_apply, ← Equiv.sum_comp (contrEquiv1 dot_S1x512x2048_S1x2048x512_S1x512x512_2_1_1_2_0_0 2048 rfl rfl).symm]
  refine Finset.sum_congr rfl fun j _ => ?_
  have hj := contrEquiv1_symm_val dot_S1x512x2048_S1x2048x512_S1x512x512_2_1_1_2_0_0 2048 rfl rfl j
  have el : dot_S1x512x2048_S1x2048x512_S1x512x512_2_1_1_2_0_0.lhsIdx (ix3 (0 : Fin 1) i e) ((contrEquiv1 dot_S1x512x2048_S1x2048x512_S1x512x512_2_1_1_2_0_0 2048 rfl rfl).symm j) = ix3 (0 : Fin 1) i j :=
    funext fun a => Fin.ext (by
      match a with
      | ⟨0, _⟩ => exact dotPV_lhs_0 _ _
      | ⟨1, _⟩ => exact dotPV_lhs_1 _ _
      | ⟨2, _⟩ => exact (dotPV_lhs_2 _ _).trans hj)
  have er : dot_S1x512x2048_S1x2048x512_S1x512x512_2_1_1_2_0_0.rhsIdx (ix3 (0 : Fin 1) i e) ((contrEquiv1 dot_S1x512x2048_S1x2048x512_S1x512x512_2_1_1_2_0_0 2048 rfl rfl).symm j) = ix3 (0 : Fin 1) j e :=
    funext fun a => Fin.ext (by
      match a with
      | ⟨0, _⟩ => exact dotPV_rhs_0 _ _
      | ⟨1, _⟩ => exact (dotPV_rhs_1 _ _).trans hj
      | ⟨2, _⟩ => exact dotPV_rhs_2 _ _)
  rw [el, er]

/-- The row maximum: the maximum over the key axis, folded from the word of −∞, at (0, i) is the largest score of row i
    folded from −∞. -/
theorem rowMax_apply (s : FVec Ideal S1x512x2048 .f32) (h : S1x512x2048.Reduces [2] S1x512) (hφ : FKind.Formats .f32)
    (hacc : (0xFF800000#32 : BitVec 32) = FKind.maximumf.neutral .f32 hφ) (i : Fin 512) :
    multiReduction .maximumf [2] S1x512 s 0xFF800000#32 h hφ hacc (ix2 (0 : Fin 1) i)
      = rowMax (fun j : Fin 2048 => s (ix3 (0 : Fin 1) i j)) := by
  refine (Ideal.multiReduction_maximumf_single s _ h hφ hacc (ix2 (0 : Fin 1) i)).trans ?_
  show (Finset.univ : Finset (Fin 2048)).fold max (Ideal.ofBits .f32 0xFF800000#32) _ = _
  rw [negInf_f32]
  exact congrArg (fun f : Fin 2048 → EReal => (Finset.univ : Finset (Fin 2048)).fold max (⊥ : EReal) f)
    (funext fun j => congrArg s (lift3_last h (0 : Fin 1) i j))

/-- The row sum: the sum over the key axis from zero, at (0, i), is the sum of row i. -/
theorem rowSum_apply (p : FVec Ideal S1x512x2048 .f32) (h : S1x512x2048.Reduces [2] S1x512) (hφ : FKind.Formats .f32)
    (hacc : (0x00000000#32 : BitVec 32) = FKind.add.neutral .f32 hφ) (i : Fin 512) :
    multiReduction .add [2] S1x512 p 0x00000000#32 h hφ hacc (ix2 (0 : Fin 1) i)
      = ∑ j : Fin 2048, p (ix3 (0 : Fin 1) i j) := by
  refine (Ideal.multiReduction_add_single p _ h hφ hacc (ix2 (0 : Fin 1) i)).trans ?_
  exact Finset.sum_congr rfl fun j _ => congrArg p (lift3_last h (0 : Fin 1) i j)

/-- From the scores on: for any score block s and value block v, the maximum of each row, the exponentials of the
    differences, their row sums and the exponential-weighted sums of the value columns, divided entry by entry, give
    at (0, i, e) the softmax-weighted mean of column e under row i of the scores. -/
theorem softmax_body_apply (s : FVec Ideal S1x512x2048 .f32) (v : FVec Ideal S1x2048x512 .bf16)
    (h : S1x512x2048.Reduces [2] S1x512) (hφ : FKind.Formats .f32)
    (hmax : (0xFF800000#32 : BitVec 32) = FKind.maximumf.neutral .f32 hφ)
    (hadd : (0x00000000#32 : BitVec 32) = FKind.add.neutral .f32 hφ) (i : Fin 512) (e : Fin 512) :
    divf
      (matmul dot_S1x512x2048_S1x2048x512_S1x512x512_2_1_1_2_0_0 none
        (truncf .bf16
          (exp (subf s (broadcastTo S1x512x2048
            (shapeCast S1x512x1 (multiReduction .maximumf [2] S1x512 s 0xFF800000#32 h hφ hmax) Facts₀.shapeCasts_S1x512_S1x512x1)
            Facts₀.broadcasts_S1x512x1_S1x512x2048)))
          Facts₀.bitsLt_bf16_f32)
        v (constant S1x512x512 .f32 0x00000000#32))
      (broadcastTo S1x512x512
        (shapeCast S1x512x1
          (multiReduction .add [2] S1x512
            (exp (subf s (broadcastTo S1x512x2048
              (shapeCast S1x512x1 (multiReduction .maximumf [2] S1x512 s 0xFF800000#32 h hφ hmax) Facts₀.shapeCasts_S1x512_S1x512x1)
              Facts₀.broadcasts_S1x512x1_S1x512x2048)))
            0x00000000#32 h hφ hadd)
          Facts₀.shapeCasts_S1x512_S1x512x1)
        Facts₀.broadcasts_S1x512x1_S1x512x512)
      (ix3 (0 : Fin 1) i e)
      = softDivAfter (fun j : Fin 2048 => s (ix3 (0 : Fin 1) i j)) (fun j : Fin 2048 => v (ix3 (0 : Fin 1) j e)) := by
  have hw : ∀ j : Fin 2048,
      exp (subf s (broadcastTo S1x512x2048
            (shapeCast S1x512x1 (multiReduction .maximumf [2] S1x512 s 0xFF800000#32 h hφ hmax) Facts₀.shapeCasts_S1x512_S1x512x1)
            Facts₀.broadcasts_S1x512x1_S1x512x2048)) (ix3 (0 : Fin 1) i j)
        = weight (fun j : Fin 2048 => s (ix3 (0 : Fin 1) i j)) j := by
    intro j
    show Ideal.exp (s (ix3 (0 : Fin 1) i j) - broadcastTo S1x512x2048 _ Facts₀.broadcasts_S1x512x1_S1x512x2048 (ix3 (0 : Fin 1) i j)) = _
    rw [broadcastTo_ab1_abc_apply, shapeCast_ab_ab1_apply, rowMax_apply]
    rfl
  rw [divf_apply, weighted_apply, broadcastTo_ab1_abc_apply, shapeCast_ab_ab1_apply, rowSum_apply]
  unfold softDivAfter
  refine congrArg₂ Ideal.div (Finset.sum_congr rfl fun j _ => ?_) (Finset.sum_congr rfl fun j _ => hw j)
  rw [truncf_apply, hw j]

/-- Entry (0, i, e) of the stored block is the softmax-weighted mean, division after the sum, of column e of the value
    rows under the scores of query row i. -/
theorem k1_pay1_apply (q : Vec Ideal S1x512x512 .bf16) (k v : Vec Ideal S1x2048x512 .bf16) (i : Fin 512) (e : Fin 512) :
    k1_pay1 (F := Ideal) q k v (ix3 (0 : Fin 1) i e)
      = softDivAfter (fun j : Fin 2048 => ∑ d : Fin 512, q (ix3 (0 : Fin 1) i d) * k (ix3 (0 : Fin 1) j d))
          (fun j : Fin 2048 => v (ix3 (0 : Fin 1) j e)) := by
  unfold k1_pay1
  refine (softmax_body_apply _ _ _ _ _ _ i e).trans ?_
  refine congrArg₂ softDivAfter (funext fun j => ?_) (funext fun j => ?_)
  · refine (scores_apply _ _ i j).trans ?_
    rw [shapeCast_self, shapeCast_self]
  · rw [shapeCast_self]

end Cert.KernelIdeal.Payload

end
-- ==== Proof.AttnArray.lean ====
/-
  The attention region's output array as one function of its three input arrays.

  The region walks a grid of 8 × 4 points. At the point with coordinates (n, p) it reads the block of 512 query rows
  512·p … 512·p + 511 of batch entry n, all 2048 key rows and all 2048 value rows of batch entry n, and writes the block
  of output rows 512·p … 512·p + 511 of batch entry n. Entry (i, e) of the written block is the softmax-weighted mean
  (division after the sum) of column e of the value rows under the scores of query row i of the block, which is the
  whole-array attention at (n, 512·p + i, e). The 32 written blocks tile the output array, so it ends holding the
  whole-array attention everywhere.
-/
import proofs.«152242_j2465311228213_2_alg».proof.Proof.Gen.KernelIdeal.Frame
import proofs.«152242_j2465311228213_2_alg».proof.Proof.PayloadAttn
import proofs.«152242_j2465311228213_2_alg».proof.Proof.Spec
import Idealize.ShloMosaic.Lib.Pipeline.Value
import Idealize.ShloMosaic.Lib.ValueIdx

set_option maxRecDepth 16384

noncomputable section

open scoped BigOperators

namespace Cert.KernelIdeal.Arrays1

open Cert.KernelIdeal Cert.KernelIdeal.Gen Idealize.ShloMosaic Idealize.ShloMosaic.TcCoe Idealize.SL.Sem
open Idealize.ShloMosaic.ValueIdx Cert.Attention Cert.KernelIdeal.Payload
open Idealize.ShloMosaic.Pipeline (Dat)

variable (V : (c : Dev nD) → (b : Ref sig .tc) → Buf (Elt Ideal) ((c : Thread nD τ).loc b)) (c : Dev nD)

/-- The zero offset of a whole-block access. -/
theorem zeroOff : (![0, 0, 0] : Fin 3 → Nat) = fun _ => 0 := funext fun a => by fin_cases a <;> rfl

/-! ## One entry of one block -/

/-- If a query block, a key block and a value block hold row s of batch entry n of the query array (at block row i) and
    all rows of batch entry n of the key and value arrays, the block's stored value at (i, e) is the whole-array
    attention at (n, s, e). -/
theorem block_entry (q : Vec Ideal S1x512x512 .bf16) (k v : Vec Ideal S1x2048x512 .bf16) (Q K W : Act)
    (n : Fin 8) (s : Fin 2048) (i e : Fin 512)
    (hq : ∀ d : Fin 512, q (ix3 (0 : Fin 1) i d) = Q (ix3 n s d))
    (hk : ∀ (j : Fin 2048) (d : Fin 512), k (ix3 (0 : Fin 1) j d) = K (ix3 n j d))
    (hv : ∀ j : Fin 2048, v (ix3 (0 : Fin 1) j e) = W (ix3 n j e)) :
    k1_pay1 (F := Ideal) q k v (ix3 (0 : Fin 1) i e) = attnAfterArr Q K W (ix3 n s e) := by
  rw [k1_pay1_apply]
  show softDivAfter _ _ = softDivAfter (fun j : Fin 2048 => score Q K n s j) (fun j : Fin 2048 => W (ix3 n j e))
  refine congrArg₂ softDivAfter (funext fun j => ?_) (funext fun j => hv j)
  show (∑ d : Fin 512, q (ix3 (0 : Fin 1) i d) * k (ix3 (0 : Fin 1) j d)) = ∑ d : Fin 512, Q (ix3 n s d) * K (ix3 n j d)
  refine Finset.sum_congr rfl fun d _ => ?_
  rw [hq d, hk j d]

/-! ## The block index maps over the grid -/

/-- At every grid point: the query block moves with the output block, the key and value blocks sit at the output's
    batch entry and at row block 0, and the output's block indices stay in their ranges. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 7
    ∧ win1_3.index t (1 : Fin 3) ≤ 3
    ∧ win1_3.index t (2 : Fin 3) = 0 :=
  (by decide +kernel : ∀ t : Fin grid1.N, _)

/-- Every (batch entry, row block) pair is some grid point's output block. -/
theorem idx_onto : ∀ (n : Fin 8) (p : Fin 4), ∃ t : Fin cfg1.N, win1_3.index t = ![n.val, p.val, 0] :=
  (by decide +kernel : ∀ (n : Fin 8) (p : Fin 4), ∃ t : Fin grid1.N, win1_3.index t = ![n.val, p.val, 0])

/-! ## What one grid point writes back -/

/-- The block a grid point writes back is that block of the whole-array attention of the three input arrays. -/
theorem flushed_eq (t : Fin cfg1.N) :
    (dat1 (F := Ideal) V c).flushed 3 t
      = ((cfg1.win 3).blk t).view.read (Elt Ideal) (attnAfterArr (V c main_v5) (V c main_v6) (V c main_v7)) := by
  show (cfg1.win 3).cut (grid1.coords t) ((dat1 V c).after 3 t) = _
  rw [after1_3]
  unfold out1_3
  rw [View.canon_unit_zero zeroOff]
  simp only [View.ld_unit_zero (S := S1x512x512) zeroOff, View.ld_unit_zero (S := S1x2048x512) zeroOff]
  obtain ⟨e00, e01, e02, e10, e11, e12, e20, e21, e22, b0, b1, b2⟩ := idx_facts t
  refine funext fun (y : S1x512x512.Idx) => ?_
  obtain ⟨a, i, e, rfl⟩ : ∃ (a : Fin 1) (i : Fin 512) (e : Fin 512), y = ix3 a i e := ⟨y 0, y 1, y 2, eq_ix3 y⟩
  obtain rfl : a = 0 := Subsingleton.elim _ _
  have hi : i.val < 512 := i.isLt
  refine (block_entry _ _ _ (V c main_v5) (V c main_v6) (V c main_v7)
    ⟨win1_3.index t (0 : Fin 3), by omega⟩ ⟨win1_3.index t (1 : Fin 3) * 512 + i.val, by omega⟩ i e
    (fun d => ?_) (fun j d => ?_) (fun j => ?_)).trans ?_
  · -- the query block's row i is query row 512·p + i of batch entry n
    show V c main_v5 (((cfg1.win 0).blk t).view.emb (ix3 (0 : Fin 1) i d)) = V c main_v5 (ix3 _ _ d)
    refine congrArg (V c main_v5) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * i.val = win1_3.index t (1 : Fin 3) * 512 + i.val; omega
    | ⟨2, _⟩ => show win1_0.index t (2 : Fin 3) * 512 + 1 * d.val = d.val; omega
  · -- the key block's row j is key row j of batch entry n
    show V c main_v6 (((cfg1.win 1).blk t).view.emb (ix3 (0 : Fin 1) j d)) = V c main_v6 (ix3 _ j d)
    refine congrArg (V c main_v6) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * j.val = j.val; omega
    | ⟨2, _⟩ => show win1_1.index t (2 : Fin 3) * 512 + 1 * d.val = d.val; omega
  · -- the value block's row j is value row j of batch entry n
    show V c main_v7 (((cfg1.win 2).blk t).view.emb (ix3 (0 : Fin 1) j e)) = V c main_v7 (ix3 _ j e)
    refine congrArg (V c main_v7) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * j.val = j.val; omega
    | ⟨2, _⟩ => show win1_2.index t (2 : Fin 3) * 512 + 1 * e.val = e.val; omega
  · -- the output block's entry (i, e) sits at (n, 512·p + i, e) of the output array
    show attnAfterArr (V c main_v5) (V c main_v6) (V c main_v7) (ix3 _ _ e)
      = attnAfterArr (V c main_v5) (V c main_v6) (V c main_v7) (((cfg1.win 3).blk t).view.emb (ix3 (0 : Fin 1) i e))
    refine congrArg (attnAfterArr (V c main_v5) (V c main_v6) (V c main_v7)) (funext fun a => Fin.ext ?_)
    match a with
    | ⟨0, _⟩ => show win1_3.index t (0 : Fin 3) = win1_3.index t (0 : Fin 3) * 1 + 1 * 0; omega
    | ⟨1, _⟩ => show win1_3.index t (1 : Fin 3) * 512 + i.val = win1_3.index t (1 : Fin 3) * 512 + 1 * i.val; omega
    | ⟨2, _⟩ => show e.val = win1_3.index t (2 : Fin 3) * 512 + 1 * e.val; omega

/-! ## The blocks tile the array -/

/-- An index of the output array is in a grid point's block iff each coordinate is in the block's range on its axis. -/
theorem mem_blk (t : Fin cfg1.N) (i : S8x2048x512.Idx) :
    i ∈ ((cfg1.win 3).blk t).view.set ↔ ∀ a : Fin 3, win1_3.index t a * S1x512x512.size a ≤ (i a).val
      ∧ (i a).val < win1_3.index t a * S1x512x512.size a + S1x512x512.size a := by
  show i ∈ ((View.whole main_v8).slice (win1_3.rect t)).set ↔ _
  rw [View.set_slice_whole, Rect.mem_set_unit]
  exact Iff.rfl

/-- Every index (n, s, e) of the output array is in the block of the grid point (n, s / 512). -/
theorem cover (i : S8x2048x512.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 512 ≤ (i 2).val ∧ (i 2).val < win1_3.index t (2 : Fin 3) * 512 + 512; omega

/-! ## The whole array -/

/-- After the region the output array is the whole-array attention of the query, key and value arrays it was entered
    with. -/
theorem arr1_3 : (Gen.dat1 (F := Ideal) V c).arrAt 3 cfg1.N
    = Cert.Attention.attnAfterArr (V c main_v5) (V c main_v6) (V c main_v7) :=
  (dat1 V c).arrAt_eq_of_cover 3 _ (fun t _ => flushed_eq V c t) cover

end Cert.KernelIdeal.Arrays1

end
-- ==== Proof.lean ====
/-
  A fused attention head against its plain reference, over the extended reals.

  Both programs take activations x [8, 2048, 512], three weight matrices [512, 512] and three bias vectors [512], and
  return softmax(q·kᵀ)·v with q, k, v = x·W + b, no scaling of the scores and no mask.  The kernel does it in two
  regions: the three projections over 16 blocks of 1024 flattened rows, then, per batch entry and per block of 512
  query rows, the scores against all 2048 key rows, their row maximum m, the weights exp(s − m), and the
  weight-weighted sum of the value rows divided by the sum of the weights.  The reference divides each weight by the
  sum of the weights first and then takes the weighted sum.

  At the extended reals a change of float format is the identity, a matrix product into a zero accumulator is the
  plain sum of products, and the order of a sum does not matter; what separates the two programs is only where the
  division sits.  Moving it through the sum needs every term to be a real number and the divisor to be non-zero:
  the precondition makes every argument entry real, so the projections, the scores, their maximum and the weights
  are real, and the sum of the weights is a positive real.  That is the one place the precondition is used.

  The modules: the specification (Spec) and the law joining its two arrangements (AttnLaw); the precondition read as
  "every entry is real" (Finite); the reference's generated run read as the specification (RefValue); the kernel's
  two bodies at an entry (PayloadProj, PayloadAttn), each region's blocks assembled into whole arrays (ProjArrays,
  AttnArray), the kernel's run with its result named (RunValue) and the regions chained through the host's
  regroupings (Layout, Glue).
-/
import proofs.«152242_j2465311228213_2_alg».proof.Defs
import proofs.«152242_j2465311228213_2_alg».proof.Proof.Gen.Kernel
import proofs.«152242_j2465311228213_2_alg».proof.Proof.Gen.Kernel.Skeleton
import proofs.«152242_j2465311228213_2_alg».proof.Proof.Gen.Kernel.Launch
import proofs.«152242_j2465311228213_2_alg».proof.Proof.Gen.Kernel.Points
import proofs.«152242_j2465311228213_2_alg».proof.Proof.Gen.Kernel.Frame
import proofs.«152242_j2465311228213_2_alg».proof.Proof.Gen.KernelIdeal
import proofs.«152242_j2465311228213_2_alg».proof.Proof.Gen.KernelIdeal.Skeleton
import proofs.«152242_j2465311228213_2_alg».proof.Proof.Gen.KernelIdeal.Launch
import proofs.«152242_j2465311228213_2_alg».proof.Proof.Gen.KernelIdeal.Points
import proofs.«152242_j2465311228213_2_alg».proof.Proof.Gen.KernelIdeal.Frame
import proofs.«152242_j2465311228213_2_alg».proof.Proof.Gen.ReferenceIdeal
import proofs.«152242_j2465311228213_2_alg».proof.Proof.Gen.ReferenceIdeal.Run
import proofs.«152242_j2465311228213_2_alg».proof.Proof.Gen.ReferenceIdeal.Read
import proofs.«152242_j2465311228213_2_alg».proof.Proof.Gen.Pre_finite_inputs
import proofs.«152242_j2465311228213_2_alg».proof.Proof.Spec
import proofs.«152242_j2465311228213_2_alg».proof.Proof.AttnLaw
import proofs.«152242_j2465311228213_2_alg».proof.Proof.Finite
import proofs.«152242_j2465311228213_2_alg».proof.Proof.RefValue
import proofs.«152242_j2465311228213_2_alg».proof.Proof.RunValue
import proofs.«152242_j2465311228213_2_alg».proof.Proof.Glue
import proofs.«152242_j2465311228213_2_alg».proof.Proof.ProjArrays
import proofs.«152242_j2465311228213_2_alg».proof.Proof.AttnArray
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention head of the arguments.  The kernel's result is the head with the
    division by the sum of the weights after the weighted sum of the value rows; the reference's is the head with
    each weight divided first.  Under the precondition every argument entry is a real number, hence so are the
    projections, the scores and the weights, and the sum of the weights is positive: there the two arrangements
    agree. -/
theorem algebraic : Cert.algebraic_KernelIdeal_ReferenceIdeal := by
  intro m ρ m' ρ' hpre hagree
  refine ⟨fun c => Cert.Attention.headDivAfter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.RunValue.run (F := Ideal) m ρ)
    exact Cert.KernelIdeal.Glue.result_eq m ρ c
      (Cert.KernelIdeal.Arrays.arr0_7 (Cert.KernelIdeal.Gen.V1 m ρ) c)
      (Cert.KernelIdeal.Arrays.arr0_8 (Cert.KernelIdeal.Gen.V1 m ρ) c)
      (Cert.KernelIdeal.Arrays.arr0_9 (Cert.KernelIdeal.Gen.V1 m ρ) c)
      (Cert.KernelIdeal.Arrays1.arr1_3 (Cert.KernelIdeal.Gen.V3 m ρ) c)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    obtain ⟨r0, r1, r2, r3, r4, r5, r6⟩ := Cert.Finite.reals_of_pre _ _ _ _ _ _ _ (hpre c)
    rw [Cert.ReferenceIdeal.Read.val_main_v24_eq, Cert.ReferenceIdeal.RefValue.val_main_v24_eq_spec,
      h0, h1, h2, h3, h4, h5, h6]
    exact (Cert.Attention.head_eq _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
